-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v143)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v143) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x5 : Shape := ⟨2, ![64, 5]⟩
abbrev S5 : Shape := ⟨1, ![5]⟩
abbrev S5x128 : Shape := ⟨2, ![5, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x5 : S_.BroadcastsInDim S64x5 (![] : Fin 0 → Fin S64x5.rank)
  reducesTo_S64x5_S_d0_1 : S64x5.ReducesTo [0, 1] S_
  bcast_S_S5 : S_.BroadcastsInDim S5 (![] : Fin 0 → Fin S5.rank)
  reducesTo_S5_S_d0 : S5.ReducesTo [0] S_
  bcast_S_S5x128 : S_.BroadcastsInDim S5x128 (![] : Fin 0 → Fin S5x128.rank)
  reducesTo_S5x128_S_d0_1 : S5x128.ReducesTo [0, 1] S_

variable [Facts]

def fn_part3 {F : FTy → Type} [FloatOps F] (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S5 .f32) (main_arg9 : FVec F S5 .f32) (main_arg10 : FVec F S5x128 .f32) (main_arg11 : FVec F S128 .f32) (main_arg12 : FVec F S128x128 .f32) (main_arg13 : FVec F S128 .f32) (main_v33 : IVec S_ 1) : IVec S_ 1 :=
  let main_v34 : FVec F S5 .f32 := Host.absf main_arg8
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_v39 : FVec F S5 .f32 := Host.absf main_arg9
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  let main_v44 : FVec F S5x128 .f32 := Host.absf main_arg10
  let main_cst_16 : FVec F S_ .f32 := constant S_ .f32 0x7F800000#32
  let main_v45 : FVec F S5x128 .f32 := broadcastInDim S5x128 ![] bcast_S_S5x128 main_cst_16
  let main_v46 : IVec S5x128 1 := cmpf .olt main_v44 main_v45
  let main_c_17 : IVec S_ 1 := constantI S_ 1 1#1
  let main_v47 : IVec S_ 1 := (fun x v => Host.reduce IntOp.andi x v reducesTo_S5x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S64 .f32) (main_arg6 : FVec F S64x5 .f32) (main_arg7 : FVec F S5 .f32) (main_arg8 : FVec F S5 .f32) (main_arg9 : FVec F S5 .f32) (main_arg10 : FVec F S5x128 .f32) (main_arg11 : FVec F S128 .f32) (main_arg12 : FVec F S128x128 .f32) (main_arg13 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x5 .f32 := Host.absf main_arg6
  let main_cst_8 : FVec F S_ .f32 := constant S_ .f32 0x7F800000#32
  let main_v25 : FVec F S64x5 .f32 := broadcastInDim S64x5 ![] bcast_S_S64x5 main_cst_8
  let main_v26 : IVec S64x5 1 := cmpf .olt main_v24 main_v25
  let main_c_9 : IVec S_ 1 := constantI S_ 1 1#1
  let main_v27 : IVec S_ 1 := (fun x v => Host.reduce IntOp.andi x v reducesTo_S64x5_S_d0_1 h_S_) main_v26 main_c_9
  let main_v28 : IVec S_ 1 := andi main_v23 main_v27
  let main_v29 : FVec F S5 .f32 := Host.absf main_arg7
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x800000 32) (main_arg2 : FVec F S128x128 .f32) (main_arg3 : FVec F S128 .f32) (main_arg4 : FVec F S128x64 .f32) (main_arg5 : FVec F S64 .f32) (main_arg6 : FVec F S64x5 .f32) (main_arg7 : FVec F S5 .f32) (main_arg8 : FVec F S5 .f32) (main_arg9 : FVec F S5 .f32) (main_arg10 : FVec F S5x128 .f32) (main_arg11 : FVec F S128 .f32) (main_arg12 : FVec F S128x128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x5 : Shape := ⟨2, ![64, 5]⟩
abbrev S5 : Shape := ⟨1, ![5]⟩
abbrev S5x128 : Shape := ⟨2, ![5, 128]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S5000x128 : Shape := ⟨2, ![5000, 128]⟩
abbrev S900000x128 : Shape := ⟨2, ![900000, 128]⟩
abbrev S1x128 : Shape := ⟨2, ![1, 128]⟩
abbrev S100000x64 : Shape := ⟨2, ![100000, 64]⟩
abbrev S5000x64 : Shape := ⟨2, ![5000, 64]⟩
abbrev S900000x64 : Shape := ⟨2, ![900000, 64]⟩
abbrev S1x64 : Shape := ⟨2, ![1, 64]⟩
abbrev S100000x5 : Shape := ⟨2, ![100000, 5]⟩
abbrev S5000x5 : Shape := ⟨2, ![5000, 5]⟩
abbrev S1x5 : Shape := ⟨2, ![1, 5]⟩
abbrev S5000 : Shape := ⟨1, ![5000]⟩
abbrev S5000x1 : Shape := ⟨2, ![5000, 1]⟩

abbrev nBuf : Space → Nat
  | .hbm => 192
  | .vmem => 52
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S64x5, .f32⟩
  | 7 => ⟨S5, .f32⟩
  | 8 => ⟨S5, .f32⟩
  | 9 => ⟨S5, .f32⟩
  | 10 => ⟨S5x128, .f32⟩
  | 11 => ⟨S128, .f32⟩
  | 12 => ⟨S128x128, .f32⟩
  | 13 => ⟨S128, .f32⟩
  | 14 => ⟨S100000, .i32⟩
  | 15 => ⟨S1x800000, .i32⟩
  | 16 => ⟨S800000, .i32⟩
  | 17 => ⟨S900000, .i32⟩
  | 18 => ⟨S1x800000, .i32⟩
  | 19 => ⟨S800000, .i32⟩
  | 20 => ⟨S900000, .i32⟩
  | 21 => ⟨S_, .f32⟩
  | 22 => ⟨S900000, .f32⟩
  | 23 => ⟨S_, .f32⟩
  | 24 => ⟨S100000, .f32⟩
  | 25 => ⟨S900000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S100000x128, .f32⟩
  | 36 => ⟨S_, .i32⟩
  | 37 => ⟨S900000, .i32⟩
  | 38 => ⟨S900000, .i1⟩
  | 39 => ⟨S_, .i32⟩
  | 40 => ⟨S900000, .i32⟩
  | 41 => ⟨S900000, .i32⟩
  | 42 => ⟨S900000, .i32⟩
  | 43 => ⟨S900000x1, .i32⟩
  | 44 => ⟨S900000, .f32⟩
  | 45 => ⟨S_, .i32⟩
  | 46 => ⟨S900000, .i32⟩
  | 47 => ⟨S900000, .i1⟩
  | 48 => ⟨S_, .i32⟩
  | 49 => ⟨S900000, .i32⟩
  | 50 => ⟨S900000, .i32⟩
  | 51 => ⟨S900000, .i32⟩
  | 52 => ⟨S900000x1, .i32⟩
  | 53 => ⟨S900000, .f32⟩
  | 54 => ⟨S900000, .f32⟩
  | 55 => ⟨S900000x1, .f32⟩
  | 56 => ⟨S_, .i32⟩
  | 57 => ⟨S900000, .i32⟩
  | 58 => ⟨S900000, .i1⟩
  | 59 => ⟨S_, .i32⟩
  | 60 => ⟨S900000, .i32⟩
  | 61 => ⟨S900000, .i32⟩
  | 62 => ⟨S900000, .i32⟩
  | 63 => ⟨S900000x1, .i32⟩
  | 64 => ⟨S900000x128, .f32⟩
  | 65 => ⟨S900000x128, .f32⟩
  | 66 => ⟨S900000x128, .f32⟩
  | 67 => ⟨S_, .f32⟩
  | 68 => ⟨S100000x128, .f32⟩
  | 69 => ⟨S900000x1, .i32⟩
  | 70 => ⟨S100000x128, .f32⟩
  | 71 => ⟨S1x128, .f32⟩
  | 72 => ⟨S100000x128, .f32⟩
  | 73 => ⟨S100000x64, .f32⟩
  | 74 => ⟨S_, .i32⟩
  | 75 => ⟨S900000, .i32⟩
  | 76 => ⟨S900000, .i1⟩
  | 77 => ⟨S_, .i32⟩
  | 78 => ⟨S900000, .i32⟩
  | 79 => ⟨S900000, .i32⟩
  | 80 => ⟨S900000, .i32⟩
  | 81 => ⟨S900000x1, .i32⟩
  | 82 => ⟨S900000, .f32⟩
  | 83 => ⟨S_, .i32⟩
  | 84 => ⟨S900000, .i32⟩
  | 85 => ⟨S900000, .i1⟩
  | 86 => ⟨S_, .i32⟩
  | 87 => ⟨S900000, .i32⟩
  | 88 => ⟨S900000, .i32⟩
  | 89 => ⟨S900000, .i32⟩
  | 90 => ⟨S900000x1, .i32⟩
  | 91 => ⟨S900000, .f32⟩
  | 92 => ⟨S900000, .f32⟩
  | 93 => ⟨S900000x1, .f32⟩
  | 94 => ⟨S_, .i32⟩
  | 95 => ⟨S900000, .i32⟩
  | 96 => ⟨S900000, .i1⟩
  | 97 => ⟨S_, .i32⟩
  | 98 => ⟨S900000, .i32⟩
  | 99 => ⟨S900000, .i32⟩
  | 100 => ⟨S900000, .i32⟩
  | 101 => ⟨S900000x1, .i32⟩
  | 102 => ⟨S900000x64, .f32⟩
  | 103 => ⟨S900000x64, .f32⟩
  | 104 => ⟨S900000x64, .f32⟩
  | 105 => ⟨S_, .f32⟩
  | 106 => ⟨S100000x64, .f32⟩
  | 107 => ⟨S900000x1, .i32⟩
  | 108 => ⟨S100000x64, .f32⟩
  | 109 => ⟨S1x64, .f32⟩
  | 110 => ⟨S100000x64, .f32⟩
  | 111 => ⟨S100000x5, .f32⟩
  | 112 => ⟨S1x5, .f32⟩
  | 113 => ⟨S1x5, .f32⟩
  | 114 => ⟨S1x5, .f32⟩
  | 115 => ⟨S100000x5, .f32⟩
  | 116 => ⟨S100000x128, .f32⟩
  | 117 => ⟨S_, .i32⟩
  | 118 => ⟨S900000, .i32⟩
  | 119 => ⟨S900000, .i1⟩
  | 120 => ⟨S_, .i32⟩
  | 121 => ⟨S900000, .i32⟩
  | 122 => ⟨S900000, .i32⟩
  | 123 => ⟨S900000, .i32⟩
  | 124 => ⟨S900000x1, .i32⟩
  | 125 => ⟨S900000, .f32⟩
  | 126 => ⟨S_, .i32⟩
  | 127 => ⟨S900000, .i32⟩
  | _ => ⟨S100000x128, .f32⟩

abbrev hbmTy0_1 (i : Nat) : BufTy := match i % 128 with
  | 0 => ⟨S900000, .i1⟩
  | 1 => ⟨S_, .i32⟩
  | 2 => ⟨S900000, .i32⟩
  | 3 => ⟨S900000, .i32⟩
  | 4 => ⟨S900000, .i32⟩
  | 5 => ⟨S900000x1, .i32⟩
  | 6 => ⟨S900000, .f32⟩
  | 7 => ⟨S900000, .f32⟩
  | 8 => ⟨S900000x1, .f32⟩
  | 9 => ⟨S_, .i32⟩
  | 10 => ⟨S900000, .i32⟩
  | 11 => ⟨S900000, .i1⟩
  | 12 => ⟨S_, .i32⟩
  | 13 => ⟨S900000, .i32⟩
  | 14 => ⟨S900000, .i32⟩
  | 15 => ⟨S900000, .i32⟩
  | 16 => ⟨S900000x1, .i32⟩
  | 17 => ⟨S900000x128, .f32⟩
  | 18 => ⟨S900000x128, .f32⟩
  | 19 => ⟨S900000x128, .f32⟩
  | 20 => ⟨S_, .f32⟩
  | 21 => ⟨S100000x128, .f32⟩
  | 22 => ⟨S900000x1, .i32⟩
  | 23 => ⟨S100000x128, .f32⟩
  | 24 => ⟨S1x128, .f32⟩
  | 25 => ⟨S100000x128, .f32⟩
  | 26 => ⟨S100000x128, .f32⟩
  | 27 => ⟨S_, .i32⟩
  | 28 => ⟨S900000, .i32⟩
  | 29 => ⟨S900000, .i1⟩
  | 30 => ⟨S_, .i32⟩
  | 31 => ⟨S900000, .i32⟩
  | 32 => ⟨S900000, .i32⟩
  | 33 => ⟨S900000, .i32⟩
  | 34 => ⟨S900000x1, .i32⟩
  | 35 => ⟨S900000, .f32⟩
  | 36 => ⟨S_, .i32⟩
  | 37 => ⟨S900000, .i32⟩
  | 38 => ⟨S900000, .i1⟩
  | 39 => ⟨S_, .i32⟩
  | 40 => ⟨S900000, .i32⟩
  | 41 => ⟨S900000, .i32⟩
  | 42 => ⟨S900000, .i32⟩
  | 43 => ⟨S900000x1, .i32⟩
  | 44 => ⟨S900000, .f32⟩
  | 45 => ⟨S900000, .f32⟩
  | 46 => ⟨S900000x1, .f32⟩
  | 47 => ⟨S_, .i32⟩
  | 48 => ⟨S900000, .i32⟩
  | 49 => ⟨S900000, .i1⟩
  | 50 => ⟨S_, .i32⟩
  | 51 => ⟨S900000, .i32⟩
  | 52 => ⟨S900000, .i32⟩
  | 53 => ⟨S900000, .i32⟩
  | 54 => ⟨S900000x1, .i32⟩
  | 55 => ⟨S900000x128, .f32⟩
  | 56 => ⟨S900000x128, .f32⟩
  | 57 => ⟨S900000x128, .f32⟩
  | 58 => ⟨S_, .f32⟩
  | 59 => ⟨S100000x128, .f32⟩
  | 60 => ⟨S900000x1, .i32⟩
  | 61 => ⟨S100000x128, .f32⟩
  | 62 => ⟨S1x128, .f32⟩
  | 63 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x5, .f32⟩
  | .local _ .vmem, ⟨23, _⟩ => ⟨S5000x5, .f32⟩
  | .local _ .vmem, ⟨24, _⟩ => ⟨S5000x5, .f32⟩
  | .local _ .vmem, ⟨25, _⟩ => ⟨S5000x5, .f32⟩
  | .local _ .vmem, ⟨26, _⟩ => ⟨S5000x5, .f32⟩
  | .local _ .vmem, ⟨27, _⟩ => ⟨S1x5, .f32⟩
  | .local _ .vmem, ⟨28, _⟩ => ⟨S1x5, .f32⟩
  | .local _ .vmem, ⟨29, _⟩ => ⟨S1x5, .f32⟩
  | .local _ .vmem, ⟨30, _⟩ => ⟨S5000x5, .f32⟩
  | .local _ .vmem, ⟨31, _⟩ => ⟨S5000x5, .f32⟩
  | .local _ .vmem, ⟨32, _⟩ => ⟨S5000x5, .f32⟩
  | .local _ .vmem, ⟨33, _⟩ => ⟨S5000x5, .f32⟩
  | .local _ .vmem, ⟨34, _⟩ => ⟨S5x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_15 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_16 : Ref sig .tc := ⟨.hbm, 117, rfl⟩
abbrev main_v83 : Ref sig .tc := ⟨.hbm, 118, rfl⟩
abbrev main_v84 : Ref sig .tc := ⟨.hbm, 119, rfl⟩
abbrev main_c_17 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_18 : Ref sig .tc := ⟨.hbm, 126, rfl⟩
abbrev main_v90 : Ref sig .tc := ⟨.hbm, 127, rfl⟩
abbrev main_v91 : Ref sig .tc := ⟨.hbm, 128, rfl⟩
abbrev main_c_19 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_20 : Ref sig .tc := ⟨.hbm, 137, rfl⟩
abbrev main_v99 : Ref sig .tc := ⟨.hbm, 138, rfl⟩
abbrev main_v100 : Ref sig .tc := ⟨.hbm, 139, rfl⟩
abbrev main_c_21 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_22 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_c_23 : Ref sig .tc := ⟨.hbm, 155, rfl⟩
abbrev main_v114 : Ref sig .tc := ⟨.hbm, 156, rfl⟩
abbrev main_v115 : Ref sig .tc := ⟨.hbm, 157, rfl⟩
abbrev main_c_24 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_25 : Ref sig .tc := ⟨.hbm, 164, rfl⟩
abbrev main_v121 : Ref sig .tc := ⟨.hbm, 165, rfl⟩
abbrev main_v122 : Ref sig .tc := ⟨.hbm, 166, rfl⟩
abbrev main_c_26 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_c_27 : Ref sig .tc := ⟨.hbm, 175, rfl⟩
abbrev main_v130 : Ref sig .tc := ⟨.hbm, 176, rfl⟩
abbrev main_v131 : Ref sig .tc := ⟨.hbm, 177, rfl⟩
abbrev main_c_28 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_29 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc5_stg4_0 : Ref sig .tc := ⟨.vmem, 30, rfl⟩
abbrev cc5_stg4_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg2_0 : Ref sig .tc := ⟨.vmem, 45, rfl⟩
abbrev cc8_stg2_1 : Ref sig .tc := ⟨.vmem, 46, rfl⟩
abbrev cc9_stg0_0 : Ref sig .tc := ⟨.vmem, 47, rfl⟩
abbrev cc9_stg0_1 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg2_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem3_0 : DmaSem sig := 29
abbrev cc5_sem4_0 : DmaSem sig := 30
abbrev cc5_sem4_1 : DmaSem sig := 31
abbrev cc6_sem0_0 : DmaSem sig := 32
abbrev cc6_sem0_1 : DmaSem sig := 33
abbrev cc6_sem1_0 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc8_sem0_0 : DmaSem sig := 42
abbrev cc8_sem0_1 : DmaSem sig := 43
abbrev cc8_sem1_0 : DmaSem sig := 44
abbrev cc8_sem2_0 : DmaSem sig := 45
abbrev cc8_sem2_1 : DmaSem sig := 46
abbrev cc9_sem0_0 : DmaSem sig := 47
abbrev cc9_sem0_1 : DmaSem sig := 48
abbrev cc9_sem1_0 : DmaSem sig := 49
abbrev cc9_sem2_0 : DmaSem sig := 50
abbrev cc9_sem2_1 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x5 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x5 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x5 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x5 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x5 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x5 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x5 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x5 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S5x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x5_S64x5_0_0 : ∀ a, (![0, 0] : Fin 2 → Nat) a + S64x5.size a ≤ S64x5.size a
  h_S64x5 : 0 < S64x5.numel
  inb_S5000x5_S5000x5_0_0 : ∀ a, (![0, 0] : Fin 2 → Nat) a + S5000x5.size a ≤ S5000x5.size a
  h_S5000x5 : 0 < S5000x5.numel
  shapeCasts_S5_S1x5 : S5.ShapeCasts S1x5
  shapeCasts_S5000x5_S5000x5 : S5000x5.ShapeCasts S5000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S5000x5 : S1x5.Broadcasts S5000x5
  reduces_S5000x5_S5000 : S5000x5.Reduces [1] S5000
  shapeCasts_S5000_S5000x1 : S5000.ShapeCasts S5000x1
  broadcasts_S5000x1_S5000x5 : S5000x1.Broadcasts S5000x5
  inb_S5x128_S5x128_0_0 : ∀ a, (![0, 0] : Fin 2 → Nat) a + S5x128.size a ≤ S5x128.size a
  h_S5x128 : 0 < S5x128.numel
  scatter_S100000_S900000x1_S900000_n_0_0_1_wf : ScatterDims.WF S100000 S900000x1 S900000 [] [0] [0] 1
  dot_S5000x128_S128x128_S5000x128_1_0_0_1_n_n_wf : DotDims.WF S5000x128 S128x128 S5000x128 [1] [0] [0] [1] [] []
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x64_S5000x64_1_0_0_1_n_n_wf : DotDims.WF S5000x128 S128x64 S5000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S5000x64_S64x5_S5000x5_1_0_0_1_n_n_wf : DotDims.WF S5000x64 S64x5 S5000x5 [1] [0] [0] [1] [] []
  dot_S5000x5_S5x128_S5000x128_1_0_0_1_n_n_wf : DotDims.WF S5000x5 S5x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x5.size a ≤ S64x5.size a
  hwx4_1 : ∀ i : grid4.Coords, EltTy.bits .f32 = 32 ∨ (Rect.block (s := S64x5) S64x5.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x5.size a ≤ S100000x5.size a
  hwx4_2 : ∀ i : grid4.Coords, EltTy.bits .f32 = 32 ∨ (Rect.block (s := S100000x5) S5000x5.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x5.size a ≤ S100000x5.size a
  hwx5_0 : ∀ i : grid5.Coords, EltTy.bits .f32 = 32 ∨ (Rect.block (s := S100000x5) S5000x5.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x5.size a ≤ S1x5.size a
  hwx5_1 : ∀ i : grid5.Coords, EltTy.bits .f32 = 32 ∨ (Rect.block (s := S1x5) S1x5.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x5.size a ≤ S1x5.size a
  hwx5_2 : ∀ i : grid5.Coords, EltTy.bits .f32 = 32 ∨ (Rect.block (s := S1x5) S1x5.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x5.size a ≤ S1x5.size a
  hwx5_3 : ∀ i : grid5.Coords, EltTy.bits .f32 = 32 ∨ (Rect.block (s := S1x5) S1x5.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x5.size a ≤ S100000x5.size a
  hwx5_4 : ∀ i : grid5.Coords, EltTy.bits .f32 = 32 ∨ (Rect.block (s := S100000x5) S5000x5.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x5.size a ≤ S100000x5.size a
  hwx6_0 : ∀ i : grid6.Coords, EltTy.bits .f32 = 32 ∨ (Rect.block (s := S100000x5) S5000x5.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S5x128.size a ≤ S5x128.size a
  hwx6_1 : ∀ i : grid6.Coords, EltTy.bits .f32 = 32 ∨ (Rect.block (s := S5x128) S5x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S128x128.size a
  hwx8_1 : ∀ i : grid8.Coords, EltTy.bits .f32 = 32 ∨ (Rect.block (s := S128x128) S128x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x128.size a ≤ S100000x128.size a
  hwx9_2 : ∀ i : grid9.Coords, EltTy.bits .f32 = 32 ∨ (Rect.block (s := S100000x128) S5000x128.size (cc9_transform_2 i) (hinb9_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S5000x64_S64x5_S5000x5_1_0_0_1_n_n : DotDims S5000x64 S64x5 S5000x5 where
  lhsContracting := [1]
  rhsContracting := [0]
  lhsNonContracting := [0]
  rhsNonContracting := [1]
  lhsBatch := []
  rhsBatch := []
  wf := dot_S5000x64_S64x5_S5000x5_1_0_0_1_n_n_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x5.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S5000x5.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x5.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x5.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S1x5.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80) S1x5.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v81) S5000x5.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v81) S5000x5.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S5x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v110) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v111) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v112) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v112) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg12) S128x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v113) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v141) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v142) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v143) S5000x128.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x5 : Shape := ⟨2, ![64, 5]⟩
abbrev S5 : Shape := ⟨1, ![5]⟩
abbrev S5x128 : Shape := ⟨2, ![5, 128]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x64 : Shape := ⟨2, ![100000, 64]⟩
abbrev S900000x64 : Shape := ⟨2, ![900000, 64]⟩
abbrev S1x64 : Shape := ⟨2, ![1, 64]⟩
abbrev S100000x5 : Shape := ⟨2, ![100000, 5]⟩
abbrev S1x5 : Shape := ⟨2, ![1, 5]⟩
abbrev S100000x1 : Shape := ⟨2, ![100000, 1]⟩

abbrev nBuf : Space → Nat
  | .hbm => 233
  | .vmem => 0
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S64x5, .f32⟩
  | 7 => ⟨S5, .f32⟩
  | 8 => ⟨S5, .f32⟩
  | 9 => ⟨S5, .f32⟩
  | 10 => ⟨S5x128, .f32⟩
  | 11 => ⟨S128, .f32⟩
  | 12 => ⟨S128x128, .f32⟩
  | 13 => ⟨S128, .f32⟩
  | 14 => ⟨S100000, .i32⟩
  | 15 => ⟨S1x800000, .i32⟩
  | 16 => ⟨S800000, .i32⟩
  | 17 => ⟨S900000, .i32⟩
  | 18 => ⟨S1x800000, .i32⟩
  | 19 => ⟨S800000, .i32⟩
  | 20 => ⟨S900000, .i32⟩
  | 21 => ⟨S_, .f32⟩
  | 22 => ⟨S900000, .f32⟩
  | 23 => ⟨S_, .f32⟩
  | 24 => ⟨S100000, .f32⟩
  | 25 => ⟨S900000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S100000x128, .f32⟩
  | 36 => ⟨S_, .i32⟩
  | 37 => ⟨S900000, .i32⟩
  | 38 => ⟨S900000, .i1⟩
  | 39 => ⟨S_, .i32⟩
  | 40 => ⟨S900000, .i32⟩
  | 41 => ⟨S900000, .i32⟩
  | 42 => ⟨S900000, .i32⟩
  | 43 => ⟨S900000x1, .i32⟩
  | 44 => ⟨S900000, .f32⟩
  | 45 => ⟨S_, .i32⟩
  | 46 => ⟨S900000, .i32⟩
  | 47 => ⟨S900000, .i1⟩
  | 48 => ⟨S_, .i32⟩
  | 49 => ⟨S900000, .i32⟩
  | 50 => ⟨S900000, .i32⟩
  | 51 => ⟨S900000, .i32⟩
  | 52 => ⟨S900000x1, .i32⟩
  | 53 => ⟨S900000, .f32⟩
  | 54 => ⟨S900000, .f32⟩
  | 55 => ⟨S900000x1, .f32⟩
  | 56 => ⟨S_, .i32⟩
  | 57 => ⟨S900000, .i32⟩
  | 58 => ⟨S900000, .i1⟩
  | 59 => ⟨S_, .i32⟩
  | 60 => ⟨S900000, .i32⟩
  | 61 => ⟨S900000, .i32⟩
  | 62 => ⟨S900000, .i32⟩
  | 63 => ⟨S900000x1, .i32⟩
  | 64 => ⟨S900000x128, .f32⟩
  | 65 => ⟨S900000x128, .f32⟩
  | 66 => ⟨S900000x128, .f32⟩
  | 67 => ⟨S_, .f32⟩
  | 68 => ⟨S100000x128, .f32⟩
  | 69 => ⟨S900000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x64, .f32⟩
  | 78 => ⟨S_, .i32⟩
  | 79 => ⟨S900000, .i32⟩
  | 80 => ⟨S900000, .i1⟩
  | 81 => ⟨S_, .i32⟩
  | 82 => ⟨S900000, .i32⟩
  | 83 => ⟨S900000, .i32⟩
  | 84 => ⟨S900000, .i32⟩
  | 85 => ⟨S900000x1, .i32⟩
  | 86 => ⟨S900000, .f32⟩
  | 87 => ⟨S_, .i32⟩
  | 88 => ⟨S900000, .i32⟩
  | 89 => ⟨S900000, .i1⟩
  | 90 => ⟨S_, .i32⟩
  | 91 => ⟨S900000, .i32⟩
  | 92 => ⟨S900000, .i32⟩
  | 93 => ⟨S900000, .i32⟩
  | 94 => ⟨S900000x1, .i32⟩
  | 95 => ⟨S900000, .f32⟩
  | 96 => ⟨S900000, .f32⟩
  | 97 => ⟨S900000x1, .f32⟩
  | 98 => ⟨S_, .i32⟩
  | 99 => ⟨S900000, .i32⟩
  | 100 => ⟨S900000, .i1⟩
  | 101 => ⟨S_, .i32⟩
  | 102 => ⟨S900000, .i32⟩
  | 103 => ⟨S900000, .i32⟩
  | 104 => ⟨S900000, .i32⟩
  | 105 => ⟨S900000x1, .i32⟩
  | 106 => ⟨S900000x64, .f32⟩
  | 107 => ⟨S900000x64, .f32⟩
  | 108 => ⟨S900000x64, .f32⟩
  | 109 => ⟨S_, .f32⟩
  | 110 => ⟨S100000x64, .f32⟩
  | 111 => ⟨S900000x1, .i32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S100000x5, .f32⟩
  | 120 => ⟨S1x5, .f32⟩
  | 121 => ⟨S100000x5, .f32⟩
  | 122 => ⟨S100000x5, .f32⟩
  | 123 => ⟨S_, .f32⟩
  | 124 => ⟨S100000, .f32⟩
  | 125 => ⟨S100000x1, .f32⟩
  | 126 => ⟨S_, .f32⟩
  | 127 => ⟨S100000x1, .f32⟩
  | _ => ⟨S100000x128, .f32⟩

abbrev hbmTy0_1 (i : Nat) : BufTy := match i % 128 with
  | 0 => ⟨S100000x1, .f32⟩
  | 1 => ⟨S100000x5, .f32⟩
  | 2 => ⟨S100000x5, .f32⟩
  | 3 => ⟨S100000x5, .f32⟩
  | 4 => ⟨S_, .f32⟩
  | 5 => ⟨S100000, .f32⟩
  | 6 => ⟨S100000x1, .f32⟩
  | 7 => ⟨S_, .f32⟩
  | 8 => ⟨S100000x1, .f32⟩
  | 9 => ⟨S100000x1, .f32⟩
  | 10 => ⟨S100000x5, .f32⟩
  | 11 => ⟨S100000x5, .f32⟩
  | 12 => ⟨S_, .f32⟩
  | 13 => ⟨S100000x1, .f32⟩
  | 14 => ⟨S100000x1, .f32⟩
  | 15 => ⟨S100000x1, .f32⟩
  | 16 => ⟨S100000x5, .f32⟩
  | 17 => ⟨S100000x5, .f32⟩
  | 18 => ⟨S1x5, .f32⟩
  | 19 => ⟨S100000x5, .f32⟩
  | 20 => ⟨S100000x5, .f32⟩
  | 21 => ⟨S1x5, .f32⟩
  | 22 => ⟨S100000x5, .f32⟩
  | 23 => ⟨S100000x5, .f32⟩
  | 24 => ⟨S100000x128, .f32⟩
  | 25 => ⟨S_, .i32⟩
  | 26 => ⟨S900000, .i32⟩
  | 27 => ⟨S900000, .i1⟩
  | 28 => ⟨S_, .i32⟩
  | 29 => ⟨S900000, .i32⟩
  | 30 => ⟨S900000, .i32⟩
  | 31 => ⟨S900000, .i32⟩
  | 32 => ⟨S900000x1, .i32⟩
  | 33 => ⟨S900000, .f32⟩
  | 34 => ⟨S_, .i32⟩
  | 35 => ⟨S900000, .i32⟩
  | 36 => ⟨S900000, .i1⟩
  | 37 => ⟨S_, .i32⟩
  | 38 => ⟨S900000, .i32⟩
  | 39 => ⟨S900000, .i32⟩
  | 40 => ⟨S900000, .i32⟩
  | 41 => ⟨S900000x1, .i32⟩
  | 42 => ⟨S900000, .f32⟩
  | 43 => ⟨S900000, .f32⟩
  | 44 => ⟨S900000x1, .f32⟩
  | 45 => ⟨S_, .i32⟩
  | 46 => ⟨S900000, .i32⟩
  | 47 => ⟨S900000, .i1⟩
  | 48 => ⟨S_, .i32⟩
  | 49 => ⟨S900000, .i32⟩
  | 50 => ⟨S900000, .i32⟩
  | 51 => ⟨S900000, .i32⟩
  | 52 => ⟨S900000x1, .i32⟩
  | 53 => ⟨S900000x128, .f32⟩
  | 54 => ⟨S900000x128, .f32⟩
  | 55 => ⟨S900000x128, .f32⟩
  | 56 => ⟨S_, .f32⟩
  | 57 => ⟨S100000x128, .f32⟩
  | 58 => ⟨S900000x1, .i32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x128, .f32⟩
  | 67 => ⟨S_, .i32⟩
  | 68 => ⟨S900000, .i32⟩
  | 69 => ⟨S900000, .i1⟩
  | 70 => ⟨S_, .i32⟩
  | 71 => ⟨S900000, .i32⟩
  | 72 => ⟨S900000, .i32⟩
  | 73 => ⟨S900000, .i32⟩
  | 74 => ⟨S900000x1, .i32⟩
  | 75 => ⟨S900000, .f32⟩
  | 76 => ⟨S_, .i32⟩
  | 77 => ⟨S900000, .i32⟩
  | 78 => ⟨S900000, .i1⟩
  | 79 => ⟨S_, .i32⟩
  | 80 => ⟨S900000, .i32⟩
  | 81 => ⟨S900000, .i32⟩
  | 82 => ⟨S900000, .i32⟩
  | 83 => ⟨S900000x1, .i32⟩
  | 84 => ⟨S900000, .f32⟩
  | 85 => ⟨S900000, .f32⟩
  | 86 => ⟨S900000x1, .f32⟩
  | 87 => ⟨S_, .i32⟩
  | 88 => ⟨S900000, .i32⟩
  | 89 => ⟨S900000, .i1⟩
  | 90 => ⟨S_, .i32⟩
  | 91 => ⟨S900000, .i32⟩
  | 92 => ⟨S900000, .i32⟩
  | 93 => ⟨S900000, .i32⟩
  | 94 => ⟨S900000x1, .i32⟩
  | 95 => ⟨S900000x128, .f32⟩
  | 96 => ⟨S900000x128, .f32⟩
  | 97 => ⟨S900000x128, .f32⟩
  | 98 => ⟨S_, .f32⟩
  | 99 => ⟨S100000x128, .f32⟩
  | 100 => ⟨S900000x1, .i32⟩
  | 101 => ⟨S100000x128, .f32⟩
  | 102 => ⟨S1x128, .f32⟩
  | 103 => ⟨S100000x128, .f32⟩
  | 104 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_c_11 : Ref sig .tc := ⟨.hbm, 87, rfl⟩
abbrev main_v56 : Ref sig .tc := ⟨.hbm, 88, rfl⟩
abbrev main_v57 : Ref sig .tc := ⟨.hbm, 89, rfl⟩
abbrev main_c_12 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_13 : Ref sig .tc := ⟨.hbm, 98, rfl⟩
abbrev main_v65 : Ref sig .tc := ⟨.hbm, 99, rfl⟩
abbrev main_v66 : Ref sig .tc := ⟨.hbm, 100, rfl⟩
abbrev main_c_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call2_cst : Ref sig .tc := ⟨.hbm, 116, rfl⟩
abbrev main_call2_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_16 : Ref sig .tc := ⟨.hbm, 123, rfl⟩
abbrev main_v85 : Ref sig .tc := ⟨.hbm, 124, rfl⟩
abbrev main_v86 : Ref sig .tc := ⟨.hbm, 125, rfl⟩
abbrev main_cst_17 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_18 : Ref sig .tc := ⟨.hbm, 132, rfl⟩
abbrev main_v92 : Ref sig .tc := ⟨.hbm, 133, rfl⟩
abbrev main_v93 : Ref sig .tc := ⟨.hbm, 134, rfl⟩
abbrev main_cst_19 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_20 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_c_21 : Ref sig .tc := ⟨.hbm, 153, rfl⟩
abbrev main_v110 : Ref sig .tc := ⟨.hbm, 154, rfl⟩
abbrev main_v111 : Ref sig .tc := ⟨.hbm, 155, rfl⟩
abbrev main_c_22 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_23 : Ref sig .tc := ⟨.hbm, 162, rfl⟩
abbrev main_v117 : Ref sig .tc := ⟨.hbm, 163, rfl⟩
abbrev main_v118 : Ref sig .tc := ⟨.hbm, 164, rfl⟩
abbrev main_c_24 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_c_25 : Ref sig .tc := ⟨.hbm, 173, rfl⟩
abbrev main_v126 : Ref sig .tc := ⟨.hbm, 174, rfl⟩
abbrev main_v127 : Ref sig .tc := ⟨.hbm, 175, rfl⟩
abbrev main_c_26 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_27 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_call3_cst : Ref sig .tc := ⟨.hbm, 191, rfl⟩
abbrev main_call3_v0 : Ref sig .tc := ⟨.hbm, 192, rfl⟩
abbrev main_v141 : Ref sig .tc := ⟨.hbm, 193, rfl⟩
abbrev main_v142 : Ref sig .tc := ⟨.hbm, 194, rfl⟩
abbrev main_c_28 : Ref sig .tc := ⟨.hbm, 195, rfl⟩
abbrev main_v143 : Ref sig .tc := ⟨.hbm, 196, rfl⟩
abbrev main_v144 : Ref sig .tc := ⟨.hbm, 197, rfl⟩
abbrev main_c_29 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_c_30 : Ref sig .tc := ⟨.hbm, 204, rfl⟩
abbrev main_v150 : Ref sig .tc := ⟨.hbm, 205, rfl⟩
abbrev main_v151 : Ref sig .tc := ⟨.hbm, 206, rfl⟩
abbrev main_c_31 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_c_32 : Ref sig .tc := ⟨.hbm, 215, rfl⟩
abbrev main_v159 : Ref sig .tc := ⟨.hbm, 216, rfl⟩
abbrev main_v160 : Ref sig .tc := ⟨.hbm, 217, rfl⟩
abbrev main_c_33 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_34 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  reducesTo_S100000x5_S100000_d1 : S100000x5.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x5_0_1 : S100000x1.BroadcastsInDim S100000x5 (![0, 1] : Fin 2 → Fin S100000x5.rank)
  scatter_S100000_S900000x1_S900000_n_0_0_1_wf : ScatterDims.WF S100000 S900000x1 S900000 [] [0] [0] 1
  dot_S100000x128_S128x128_S100000x128_1_0_0_1_n_n_wf : DotDims.WF S100000x128 S128x128 S100000x128 [1] [0] [0] [1] [] []
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  dot_S100000x64_S64x5_S100000x5_1_0_0_1_n_n_wf : DotDims.WF S100000x64 S64x5 S100000x5 [1] [0] [0] [1] [] []
  dot_S100000x5_S5x128_S100000x128_1_0_0_1_n_n_wf : DotDims.WF S100000x5 S5x128 S100000x128 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf
def dot_S100000x64_S64x5_S100000x5_1_0_0_1_n_n : DotDims S100000x64 S64x5 S100000x5 where
  lhsContracting := [1]
  rhsContracting := [0]
  lhsNonContracting := [0]
  rhsNonContracting := [1]
  lhsBatch := []
  rhsBatch := []
  wf := dot_S100000x64_S64x5_S100000x5_1_0_0_1_n_n_wf
def dot_S100000x5_S5x128_S100000x128_1_0_0_1_n_n : DotDims S100000x5 S5x128 S100000x128 where
  lhsContracting := [1]
  rhsContracting := [0]
  lhsNonContracting := [0]
  rhsNonContracting := [1]
  lhsBatch := []
  rhsBatch := []
  wf := dot_S100000x5_S5x128_S100000x128_1_0_0_1_n_n_wf

class Facts : Prop extends Facts₀ where

variable [Facts]
-- ==== Proof.KRun.lean ====
/-
  The idealized kernel's whole run, with every buffer named.

  The program is ten grid regions among stretches of host operations.  Its run is the chain of these seventeen
  segments from the launch memory; the buffer contents at each boundary are a fold through the program: a host
  stretch applies its operations, a region replaces its output array by what its write-backs leave.  Read at the
  end of the chain, every unscoped buffer of a core holds the last boundary's contents.  From that one statement
  the result array and the unchanged arguments are read off.
-/
import proofs.«164824_j89300960019182_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and at the end every unscoped buffer of every core holds
    the contents of the last boundary of the chain of segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

/-- The run with the result array named: it ends at the last boundary's contents of the result buffer, and the
    fourteen argument arrays end as launched. -/
theorem run_named : θ_run defs (onTc (τ := τ) (main (F := F))) ⟨m, fun _ => 0, ρ⟩ (fun r => ∀ c : Dev nD,
      r.2.mem ((c.tc : Thread nD τ).loc main_v143) = W17 m ρ c (Proc.devRef .tc main_v143)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v143 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c)⟩)
    (run_all m ρ)

end Cert.KernelIdeal.Whole

end
-- ==== Proof.Carry.lean ====
/-
  What a segment of the kernel's program leaves alone.

  The program's seventeen segments are host stretches and grid regions.  A buffer that no operation of a host stretch
  writes keeps its contents across the stretch, and a buffer that is not one of a region's arrays keeps its contents
  across the region; chained, a buffer made before the first region (or a launch argument) holds the same contents at
  every later boundary up to the first segment that touches it.  `NW ops b` says no operation of `ops` writes `b`;
  it is decided for each printed stretch and each buffer the later stages read.
-/
import proofs.«164824_j89300960019182_1_alg».proof.Proof.Gen.KernelIdeal.Frame
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## What a segment leaves alone -/

/-- No operation of the stretch writes the buffer. -/
abbrev NW (ops : List (HloOp τ sig (Elt Ideal))) (b : Ref sig .tc) : Prop :=
  ∀ op ∈ ops, (Proc.devRef .tc b : DevRef τ sig) ∉ op.writes

/-- Decides `NW` for a printed stretch and a named buffer: each operation's one written buffer is another name. -/
macro "not_written" : tactic =>
  `(tactic| (refine List.forall_iff_forall_mem.mp ?_
             simp only [hostOps0, hostOps0_1, hostOps1, hostOps3, hostOps5, hostOps7, hostOps9, List.flatten_cons, List.flatten_nil,
               List.append_nil, List.cons_append, List.nil_append, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

section Carry
variable (b : Ref sig .tc)

/-- From the launch to the first region's entry. -/
theorem base2 (k0 : NW hostOps0 b) (k01 : NW hostOps0_1 b) :
    W2 m ρ c (Proc.devRef .tc b) = m ((c : Thread nD τ).loc b) :=
  (StableHlo.after_of_forall_not_mem _ _ k01).trans (StableHlo.after_of_forall_not_mem _ _ k0)

theorem mid3 (n0 : ∀ w, Pipeline.arrRef spec0 w ≠ b) : W3 m ρ c (Proc.devRef .tc b) = W2 m ρ c (Proc.devRef .tc b) :=
  W3_of_ne m ρ c b n0
theorem mid4 (n0 : ∀ w, Pipeline.arrRef spec0 w ≠ b) (k1 : NW hostOps1 b) :
    W4 m ρ c (Proc.devRef .tc b) = W2 m ρ c (Proc.devRef .tc b) :=
  (StableHlo.after_of_forall_not_mem _ _ k1).trans (mid3 m ρ c b n0)
theorem mid5 (n0 : ∀ w, Pipeline.arrRef spec0 w ≠ b) (k1 : NW hostOps1 b) (n1 : ∀ w, Pipeline.arrRef spec1 w ≠ b) :
    W5 m ρ c (Proc.devRef .tc b) = W2 m ρ c (Proc.devRef .tc b) :=
  (W5_of_ne m ρ c b n1).trans (mid4 m ρ c b n0 k1)
theorem mid6 (n0 : ∀ w, Pipeline.arrRef spec0 w ≠ b) (k1 : NW hostOps1 b) (n1 : ∀ w, Pipeline.arrRef spec1 w ≠ b)
    (n2 : ∀ w, Pipeline.arrRef spec2 w ≠ b) : W6 m ρ c (Proc.devRef .tc b) = W2 m ρ c (Proc.devRef .tc b) :=
  (W6_of_ne m ρ c b n2).trans (mid5 m ρ c b n0 k1 n1)
theorem mid7 (n0 : ∀ w, Pipeline.arrRef spec0 w ≠ b) (k1 : NW hostOps1 b) (n1 : ∀ w, Pipeline.arrRef spec1 w ≠ b)
    (n2 : ∀ w, Pipeline.arrRef spec2 w ≠ b) (k3 : NW hostOps3 b) : W7 m ρ c (Proc.devRef .tc b) = W2 m ρ c (Proc.devRef .tc b) :=
  (StableHlo.after_of_forall_not_mem _ _ k3).trans (mid6 m ρ c b n0 k1 n1 n2)
theorem mid8 (n0 : ∀ w, Pipeline.arrRef spec0 w ≠ b) (k1 : NW hostOps1 b) (n1 : ∀ w, Pipeline.arrRef spec1 w ≠ b)
    (n2 : ∀ w, Pipeline.arrRef spec2 w ≠ b) (k3 : NW hostOps3 b) (n3 : ∀ w, Pipeline.arrRef spec3 w ≠ b) :
    W8 m ρ c (Proc.devRef .tc b) = W2 m ρ c (Proc.devRef .tc b) :=
  (W8_of_ne m ρ c b n3).trans (mid7 m ρ c b n0 k1 n1 n2 k3)
theorem mid9 (n0 : ∀ w, Pipeline.arrRef spec0 w ≠ b) (k1 : NW hostOps1 b) (n1 : ∀ w, Pipeline.arrRef spec1 w ≠ b)
    (n2 : ∀ w, Pipeline.arrRef spec2 w ≠ b) (k3 : NW hostOps3 b) (n3 : ∀ w, Pipeline.arrRef spec3 w ≠ b)
    (n4 : ∀ w, Pipeline.arrRef spec4 w ≠ b) : W9 m ρ c (Proc.devRef .tc b) = W2 m ρ c (Proc.devRef .tc b) :=
  (W9_of_ne m ρ c b n4).trans (mid8 m ρ c b n0 k1 n1 n2 k3 n3)
theorem mid10 (n0 : ∀ w, Pipeline.arrRef spec0 w ≠ b) (k1 : NW hostOps1 b) (n1 : ∀ w, Pipeline.arrRef spec1 w ≠ b)
    (n2 : ∀ w, Pipeline.arrRef spec2 w ≠ b) (k3 : NW hostOps3 b) (n3 : ∀ w, Pipeline.arrRef spec3 w ≠ b)
    (n4 : ∀ w, Pipeline.arrRef spec4 w ≠ b) (k5 : NW hostOps5 b) : W10 m ρ c (Proc.devRef .tc b) = W2 m ρ c (Proc.devRef .tc b) :=
  (StableHlo.after_of_forall_not_mem _ _ k5).trans (mid9 m ρ c b n0 k1 n1 n2 k3 n3 n4)
theorem mid11 (n0 : ∀ w, Pipeline.arrRef spec0 w ≠ b) (k1 : NW hostOps1 b) (n1 : ∀ w, Pipeline.arrRef spec1 w ≠ b)
    (n2 : ∀ w, Pipeline.arrRef spec2 w ≠ b) (k3 : NW hostOps3 b) (n3 : ∀ w, Pipeline.arrRef spec3 w ≠ b)
    (n4 : ∀ w, Pipeline.arrRef spec4 w ≠ b) (k5 : NW hostOps5 b) (n5 : ∀ w, Pipeline.arrRef spec5 w ≠ b) :
    W11 m ρ c (Proc.devRef .tc b) = W2 m ρ c (Proc.devRef .tc b) :=
  (W11_of_ne m ρ c b n5).trans (mid10 m ρ c b n0 k1 n1 n2 k3 n3 n4 k5)
theorem mid12 (n0 : ∀ w, Pipeline.arrRef spec0 w ≠ b) (k1 : NW hostOps1 b) (n1 : ∀ w, Pipeline.arrRef spec1 w ≠ b)
    (n2 : ∀ w, Pipeline.arrRef spec2 w ≠ b) (k3 : NW hostOps3 b) (n3 : ∀ w, Pipeline.arrRef spec3 w ≠ b)
    (n4 : ∀ w, Pipeline.arrRef spec4 w ≠ b) (k5 : NW hostOps5 b) (n5 : ∀ w, Pipeline.arrRef spec5 w ≠ b)
    (n6 : ∀ w, Pipeline.arrRef spec6 w ≠ b) : W12 m ρ c (Proc.devRef .tc b) = W2 m ρ c (Proc.devRef .tc b) :=
  (W12_of_ne m ρ c b n6).trans (mid11 m ρ c b n0 k1 n1 n2 k3 n3 n4 k5 n5)
theorem mid13 (n0 : ∀ w, Pipeline.arrRef spec0 w ≠ b) (k1 : NW hostOps1 b) (n1 : ∀ w, Pipeline.arrRef spec1 w ≠ b)
    (n2 : ∀ w, Pipeline.arrRef spec2 w ≠ b) (k3 : NW hostOps3 b) (n3 : ∀ w, Pipeline.arrRef spec3 w ≠ b)
    (n4 : ∀ w, Pipeline.arrRef spec4 w ≠ b) (k5 : NW hostOps5 b) (n5 : ∀ w, Pipeline.arrRef spec5 w ≠ b)
    (n6 : ∀ w, Pipeline.arrRef spec6 w ≠ b) (k7 : NW hostOps7 b) : W13 m ρ c (Proc.devRef .tc b) = W2 m ρ c (Proc.devRef .tc b) :=
  (StableHlo.after_of_forall_not_mem _ _ k7).trans (mid12 m ρ c b n0 k1 n1 n2 k3 n3 n4 k5 n5 n6)
theorem mid14 (n0 : ∀ w, Pipeline.arrRef spec0 w ≠ b) (k1 : NW hostOps1 b) (n1 : ∀ w, Pipeline.arrRef spec1 w ≠ b)
    (n2 : ∀ w, Pipeline.arrRef spec2 w ≠ b) (k3 : NW hostOps3 b) (n3 : ∀ w, Pipeline.arrRef spec3 w ≠ b)
    (n4 : ∀ w, Pipeline.arrRef spec4 w ≠ b) (k5 : NW hostOps5 b) (n5 : ∀ w, Pipeline.arrRef spec5 w ≠ b)
    (n6 : ∀ w, Pipeline.arrRef spec6 w ≠ b) (k7 : NW hostOps7 b) (n7 : ∀ w, Pipeline.arrRef spec7 w ≠ b) :
    W14 m ρ c (Proc.devRef .tc b) = W2 m ρ c (Proc.devRef .tc b) :=
  (W14_of_ne m ρ c b n7).trans (mid13 m ρ c b n0 k1 n1 n2 k3 n3 n4 k5 n5 n6 k7)
theorem mid15 (n0 : ∀ w, Pipeline.arrRef spec0 w ≠ b) (k1 : NW hostOps1 b) (n1 : ∀ w, Pipeline.arrRef spec1 w ≠ b)
    (n2 : ∀ w, Pipeline.arrRef spec2 w ≠ b) (k3 : NW hostOps3 b) (n3 : ∀ w, Pipeline.arrRef spec3 w ≠ b)
    (n4 : ∀ w, Pipeline.arrRef spec4 w ≠ b) (k5 : NW hostOps5 b) (n5 : ∀ w, Pipeline.arrRef spec5 w ≠ b)
    (n6 : ∀ w, Pipeline.arrRef spec6 w ≠ b) (k7 : NW hostOps7 b) (n7 : ∀ w, Pipeline.arrRef spec7 w ≠ b)
    (n8 : ∀ w, Pipeline.arrRef spec8 w ≠ b) : W15 m ρ c (Proc.devRef .tc b) = W2 m ρ c (Proc.devRef .tc b) :=
  (W15_of_ne m ρ c b n8).trans (mid14 m ρ c b n0 k1 n1 n2 k3 n3 n4 k5 n5 n6 k7 n7)

end Carry

/-! ## The printed stretches and the buffers the later stages read -/

theorem nw_k1_v3 : NW hostOps1 main_v3 := by not_written
theorem nw_k3_v3 : NW hostOps3 main_v3 := by not_written
theorem nw_k5_v3 : NW hostOps5 main_v3 := by not_written
theorem nw_k7_v3 : NW hostOps7 main_v3 := by not_written
theorem nw_k1_v6 : NW hostOps1 main_v6 := by not_written
theorem nw_k3_v6 : NW hostOps3 main_v6 := by not_written
theorem nw_k5_v6 : NW hostOps5 main_v6 := by not_written
theorem nw_k7_v6 : NW hostOps7 main_v6 := by not_written
theorem nw_k1_v14 : NW hostOps1 main_v14 := by not_written
theorem nw_k3_v14 : NW hostOps3 main_v14 := by not_written
theorem nw_k5_v14 : NW hostOps5 main_v14 := by not_written
theorem nw_k7_v14 : NW hostOps7 main_v14 := by not_written
theorem nw_k0_arg0 : NW hostOps0 main_arg0 := by not_written
theorem nw_k01_arg0 : NW hostOps0_1 main_arg0 := by not_written
theorem nw_k0_arg2 : NW hostOps0 main_arg2 := by not_written
theorem nw_k01_arg2 : NW hostOps0_1 main_arg2 := by not_written
theorem nw_k0_arg3 : NW hostOps0 main_arg3 := by not_written
theorem nw_k01_arg3 : NW hostOps0_1 main_arg3 := by not_written
theorem nw_k1_arg4 : NW hostOps1 main_arg4 := by not_written
theorem nw_k0_arg4 : NW hostOps0 main_arg4 := by not_written
theorem nw_k01_arg4 : NW hostOps0_1 main_arg4 := by not_written
theorem nw_k1_arg5 : NW hostOps1 main_arg5 := by not_written
theorem nw_k0_arg5 : NW hostOps0 main_arg5 := by not_written
theorem nw_k01_arg5 : NW hostOps0_1 main_arg5 := by not_written
theorem nw_k1_arg6 : NW hostOps1 main_arg6 := by not_written
theorem nw_k3_arg6 : NW hostOps3 main_arg6 := by not_written
theorem nw_k0_arg6 : NW hostOps0 main_arg6 := by not_written
theorem nw_k01_arg6 : NW hostOps0_1 main_arg6 := by not_written
theorem nw_k1_arg7 : NW hostOps1 main_arg7 := by not_written
theorem nw_k3_arg7 : NW hostOps3 main_arg7 := by not_written
theorem nw_k0_arg7 : NW hostOps0 main_arg7 := by not_written
theorem nw_k01_arg7 : NW hostOps0_1 main_arg7 := by not_written
theorem nw_k1_arg8 : NW hostOps1 main_arg8 := by not_written
theorem nw_k3_arg8 : NW hostOps3 main_arg8 := by not_written
theorem nw_k0_arg8 : NW hostOps0 main_arg8 := by not_written
theorem nw_k01_arg8 : NW hostOps0_1 main_arg8 := by not_written
theorem nw_k1_arg9 : NW hostOps1 main_arg9 := by not_written
theorem nw_k3_arg9 : NW hostOps3 main_arg9 := by not_written
theorem nw_k0_arg9 : NW hostOps0 main_arg9 := by not_written
theorem nw_k01_arg9 : NW hostOps0_1 main_arg9 := by not_written
theorem nw_k1_arg10 : NW hostOps1 main_arg10 := by not_written
theorem nw_k3_arg10 : NW hostOps3 main_arg10 := by not_written
theorem nw_k5_arg10 : NW hostOps5 main_arg10 := by not_written
theorem nw_k0_arg10 : NW hostOps0 main_arg10 := by not_written
theorem nw_k01_arg10 : NW hostOps0_1 main_arg10 := by not_written
theorem nw_k1_arg11 : NW hostOps1 main_arg11 := by not_written
theorem nw_k3_arg11 : NW hostOps3 main_arg11 := by not_written
theorem nw_k5_arg11 : NW hostOps5 main_arg11 := by not_written
theorem nw_k0_arg11 : NW hostOps0 main_arg11 := by not_written
theorem nw_k01_arg11 : NW hostOps0_1 main_arg11 := by not_written
theorem nw_k1_arg12 : NW hostOps1 main_arg12 := by not_written
theorem nw_k3_arg12 : NW hostOps3 main_arg12 := by not_written
theorem nw_k5_arg12 : NW hostOps5 main_arg12 := by not_written
theorem nw_k7_arg12 : NW hostOps7 main_arg12 := by not_written
theorem nw_k0_arg12 : NW hostOps0 main_arg12 := by not_written
theorem nw_k01_arg12 : NW hostOps0_1 main_arg12 := by not_written
theorem nw_k1_arg13 : NW hostOps1 main_arg13 := by not_written
theorem nw_k3_arg13 : NW hostOps3 main_arg13 := by not_written
theorem nw_k5_arg13 : NW hostOps5 main_arg13 := by not_written
theorem nw_k7_arg13 : NW hostOps7 main_arg13 := by not_written
theorem nw_k0_arg13 : NW hostOps0 main_arg13 := by not_written
theorem nw_k01_arg13 : NW hostOps0_1 main_arg13 := by not_written
theorem nw_k5_v77 : NW hostOps5 main_v77 := by not_written

end Cert.KernelIdeal.Chain

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Spec.lean ====
/-
  The layers of the network, entry by entry on the extended reals.

  Every layer of the program is row-local: an entry (r, j) of a layer's result reads row r of the layer's row
  operand and whole small operands (a weight matrix, a bias row, the two rows of the normalisation).  The layers are:
  the row-by-column product (`LibDense.prod`), a bias row added to every row (`addRow`), the rectifier (`rect`), and
  the normalisation of a row of five entries (`layerNorm`): with `μ = (∑ row) / 5` and `σ² = (∑ (row - μ)²) / 5`,
  the entry is `((row q - μ) · rsqrt (σ² + ε)) · g q + b q`.  The division, the reciprocal square root and the three
  constants are the extended reals' own; no law between different arrangements is needed, so nothing here asks the
  entries to be finite.  Each congruence lemma says that an entry depends on its row alone.
-/
import Idealize.ShloMosaic.PureOps.Ideal
import Idealize.ShloMosaic.PureOps.Ideal.Laws
import Idealize.ShloMosaic.Lib.ValueIdx
import Idealize.ShloMosaic.Lib.Pipeline.Value
import proofs.«164824_j89300960019182_1_alg».proof.Proof.LibDense

noncomputable section

namespace Cert.Layers

open Idealize.ShloMosaic Idealize.ShloMosaic.ValueIdx

/-- The value of the zero word. -/
abbrev zeroW : EReal := Ideal.ofBits .f32 0x00000000#32
/-- The value of the word of 5.0: the number of entries of a normalised row. -/
abbrev fiveW : EReal := Ideal.ofBits .f32 0x40A00000#32
/-- The value of the word the variance is shifted by. -/
abbrev epsW : EReal := Ideal.ofBits .f32 0x3727C5AC#32

/-- A bias row `B : [1, d]` added to every row of `A : [n, d]`. -/
def addRow {n d : ℕ} (A : (⟨2, ![n, d]⟩ : Shape).Idx → EReal) (B : (⟨2, ![1, d]⟩ : Shape).Idx → EReal) :
    (⟨2, ![n, d]⟩ : Shape).Idx → EReal :=
  fun i => A i + B (ix2 (0 : Fin 1) (i 1))

/-- The rectifier, entry by entry: the larger of the entry and the zero word's value. -/
def rect {n d : ℕ} (A : (⟨2, ![n, d]⟩ : Shape).Idx → EReal) : (⟨2, ![n, d]⟩ : Shape).Idx → EReal :=
  fun i => max (A i) zeroW

/-- The mean of a row: its sum divided by the word of 5.0. -/
def rowMean {d : ℕ} (row : Fin d → EReal) : EReal := Ideal.div (∑ k : Fin d, row k) fiveW

/-- The variance of a row about its mean. -/
def rowVar {d : ℕ} (row : Fin d → EReal) : EReal :=
  Ideal.div (∑ k : Fin d, (row k - rowMean row) * (row k - rowMean row)) fiveW

/-- The normalisation of a row at column `q`, with gain `g` and shift `b`. -/
def lnRow {d : ℕ} (row g b : Fin d → EReal) (q : Fin d) : EReal :=
  ((row q - rowMean row) * Ideal.rsqrt (rowVar row + epsW)) * g q + b q

/-- Row-wise normalisation of `A : [n, d]` with gain row `G` and shift row `Bt`. -/
def layerNorm {n d : ℕ} (A : (⟨2, ![n, d]⟩ : Shape).Idx → EReal) (G Bt : (⟨2, ![1, d]⟩ : Shape).Idx → EReal) :
    (⟨2, ![n, d]⟩ : Shape).Idx → EReal :=
  fun i => lnRow (fun k => A (ix2 (i 0) k)) (fun k => G (ix2 (0 : Fin 1) k)) (fun k => Bt (ix2 (0 : Fin 1) k)) (i 1)

/-! ## Each entry depends on its own row -/

/-- An entry of the product reads one row of the left operand and one column of the right. -/
theorem prod_congr {n n' K d : ℕ} (a : (⟨2, ![n, K]⟩ : Shape).Idx → EReal) (a' : (⟨2, ![n', K]⟩ : Shape).Idx → EReal)
    (w w' : (⟨2, ![K, d]⟩ : Shape).Idx → EReal) (i : (⟨2, ![n, d]⟩ : Shape).Idx) (i' : (⟨2, ![n', d]⟩ : Shape).Idx)
    (ha : ∀ k : Fin K, a (ix2 (i 0) k) = a' (ix2 (i' 0) k)) (hw : ∀ k : Fin K, w (ix2 k (i 1)) = w' (ix2 k (i' 1))) :
    LibDense.prod a w i = LibDense.prod a' w' i' := by
  unfold LibDense.prod
  exact Finset.sum_congr rfl fun k _ => congrArg₂ (· * ·) (ha k) (hw k)

/-- An entry of the normalisation reads its own row. -/
theorem layerNorm_congr {n n' d : ℕ} (A : (⟨2, ![n, d]⟩ : Shape).Idx → EReal) (A' : (⟨2, ![n', d]⟩ : Shape).Idx → EReal)
    (G Bt : (⟨2, ![1, d]⟩ : Shape).Idx → EReal) (i : (⟨2, ![n, d]⟩ : Shape).Idx) (i' : (⟨2, ![n', d]⟩ : Shape).Idx)
    (hcol : (i 1).val = (i' 1).val) (hrow : ∀ k : Fin d, A (ix2 (i 0) k) = A' (ix2 (i' 0) k)) :
    layerNorm A G Bt i = layerNorm A' G Bt i' := by
  unfold layerNorm
  have hr : (fun k : Fin d => A (ix2 (i 0) k)) = fun k : Fin d => A' (ix2 (i' 0) k) := funext hrow
  have hc : (i 1 : Fin d) = (i' 1 : Fin d) := Fin.ext hcol
  rw [hr, hc]

/-- A row with a bias row added, along a row. -/
theorem addRow_row {n d : ℕ} (A : (⟨2, ![n, d]⟩ : Shape).Idx → EReal) (B : (⟨2, ![1, d]⟩ : Shape).Idx → EReal)
    (r : Fin n) (k : Fin d) : addRow A B (ix2 r k) = A (ix2 r k) + B (ix2 (0 : Fin 1) k) := rfl

end Cert.Layers

end
-- ==== Proof.Region0.lean ====
/-
  Region 0: the row-by-column product of a [100000, 128] array with the [128, 128] weights, computed on twenty blocks of
  5000 rows.  A block's entry (p, q) is the sum over k of the block's (p, k) times the weights' (k, q)
  (the rounding of the operands to the narrower format is the identity on the extended reals, and the accumulator starts
  at the zero word); block t holds rows 5000 t … 5000 t + 4999 of the array and the weights' window is the whole matrix, so
  the entry is the array's product at row 5000 t + p.  The twenty blocks tile the result, which therefore ends holding the
  product of the two arrays as the region found them.
-/
import proofs.«164824_j89300960019182_1_alg».proof.Proof.Gen.KernelIdeal.Frame
import proofs.«164824_j89300960019182_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the row operand and the result move with the point, the
    weights stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block's result against the whole arrays: if the block's row is the array's row and the weights'
    block is the weights, the body's value is the arrays' product there. -/
theorem point (X : S100000x128.Idx → EReal) (W : S128x128.Idx → EReal) (x0 : Vec Ideal S5000x128 .f32) (x1 : Vec Ideal S128x128 .f32)
    (j : S5000x128.Idx) (i : S100000x128.Idx) (hc : (j 1).val = (i 1).val)
    (h0 : ∀ k : Fin 128, x0 (ix2 (j 0) k) = X (ix2 (i 0) k)) (h1 : x1 = W) :
    k0_pay1 x0 x1 j = LibDense.prod X W i := by
  subst h1
  unfold k0_pay1
  refine (LibDense.matmul_plain (M := 5000) (K := 128) (N := 128) _ _ j).trans ?_
  refine Cert.Layers.prod_congr _ _ _ _ j i (fun k => ?_) (fun k => ?_)
  · exact h0 k
  · exact congrArg x1 (funext fun a => Fin.ext (by
      match a with
      | ⟨0, _⟩ => rfl
      | ⟨1, _⟩ => exact hc))

/-- What point `t` writes back is block `t` of the product of the arrays the region found. -/
theorem flushed (c : Dev nD) (t : Fin cfg0.N) :
    (dat0 V c).flushed 2 t = ((cfg0.win 2).blk t).view.read (Elt Ideal) (LibDense.prod (V c main_arg0 : S100000x128.Idx → EReal) (V c main_arg2 : S128x128.Idx → EReal)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx t
  funext j
  have hc : ((j : S5000x128.Idx) 1).val = (((cfg0.win 2).blk t).view.emb j (1 : Fin 2)).val := by
    show (j 1).val = win0_2.index t (1 : Fin 2) * 128 + 1 * (j 1).val
    omega
  have h0 : ∀ k : Fin 128, (iblk0 V c 0 t : Vec Ideal S5000x128 .f32) (ix2 ((j : S5000x128.Idx) 0) k)
      = (V c main_arg0 : S100000x128.Idx → EReal) (ix2 ((((cfg0.win 2).blk t).view.emb j : S100000x128.Idx) 0) k) := by
    intro k
    show V c main_arg0 (((cfg0.win 0).blk t).view.emb (ix2 ((j : S5000x128.Idx) 0) k)) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  have h1 : (iblk0 V c 1 t : Vec Ideal S128x128 .f32) = (V c main_arg2 : S128x128.Idx → EReal) := by
    funext y
    show V c main_arg2 (((cfg0.win 1).blk t).view.emb y) = V c main_arg2 y
    refine congrArg (V c main_arg2) (funext fun a => Fin.ext ?_)
    match a with
    | ⟨0, _⟩ =>
      show win0_1.index t (0 : Fin 2) * 128 + 1 * (y 0).val = (y 0).val
      omega
    | ⟨1, _⟩ =>
      show win0_1.index t (1 : Fin 2) * 128 + 1 * (y 1).val = (y 1).val
      omega
  exact point (V c main_arg0) (V c main_arg2) (iblk0 V c 0 t) (iblk0 V c 1 t) j (((cfg0.win 2).blk t).view.emb j) hc h0 h1

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v15).slice (win0_2.rect t)).set ↔ _
  rw [View.set_slice_whole, Rect.mem_set_unit]
  exact Iff.rfl

/-- Row `r` of the result lies in the block of point `r / 5000`: the blocks tile the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := idx t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The result array after the region: the product of the two arrays the region found. -/
theorem arr (c : Dev nD) : (dat0 V c).arrAt 2 cfg0.N = (LibDense.prod (V c main_arg0 : S100000x128.Idx → EReal) (V c main_arg2 : S128x128.Idx → EReal)) :=
  (dat0 V c).arrAt_eq_of_cover 2 _ (fun t _ => flushed V c t) cover

end Cert.KernelIdeal.Region0

end
-- ==== Proof.Region1.lean ====
/-
  Region 1: a bias row added to every row of a [100000, 128] array, then the rectifier, computed on twenty blocks of 5000 rows.
  A block's entry (p, q) is the block's entry plus the bias row's entry q, joined with the zero word's value; block t holds rows
  5000 t … 5000 t + 4999 of the array and the bias row's window is the whole row, so the entry is the layer's value at row
  5000 t + p.  The twenty blocks tile the result, which therefore ends holding the layer of the two arrays as the region
  found them.
-/
import proofs.«164824_j89300960019182_1_alg».proof.Proof.Gen.KernelIdeal.Frame
import proofs.«164824_j89300960019182_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the row operand and the result move with the point, the
    bias row stays. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of a block's result against the whole arrays: if the block's entry is the array's entry and the bias
    row's block is the bias row, the body's value is the layer's value there. -/
theorem point (X : S100000x128.Idx → EReal) (B : S1x128.Idx → EReal) (x0 : Vec Ideal S5000x128 .f32) (x1 : Vec Ideal S1x128 .f32)
    (j : S5000x128.Idx) (i : S100000x128.Idx) (hc : (j 1).val = (i 1).val) (h0 : x0 j = X i) (h1 : x1 = B) :
    k1_pay1 x0 x1 j = Cert.Layers.rect (Cert.Layers.addRow X B) i := by
  subst h1
  obtain ⟨p, q, rfl⟩ : ∃ (p : Fin 5000) (q : Fin 128), j = ix2 p q := ⟨j 0, j 1, eq_ix2 j⟩
  have hq : (q : Fin 128) = i 1 := Fin.ext hc
  unfold k1_pay1
  simp only [shapeCast_self]
  show max (x0 (ix2 p q) + broadcastTo S5000x128 x1 broadcasts_S1x128_S5000x128 (ix2 p q)) Cert.Layers.zeroW = max (X i + x1 (ix2 (0 : Fin 1) (i 1))) Cert.Layers.zeroW
  rw [broadcastTo_1b_ab_apply, h0, hq]

/-- What point `t` writes back is block `t` of the layer of the arrays the region found. -/
theorem flushed (c : Dev nD) (t : Fin cfg1.N) :
    (dat1 V c).flushed 2 t = ((cfg1.win 2).blk t).view.read (Elt Ideal) (Cert.Layers.rect (Cert.Layers.addRow (V c main_v43 : S100000x128.Idx → EReal) (V c main_v44 : S1x128.Idx → EReal))) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx t
  funext j
  have hc : ((j : S5000x128.Idx) 1).val = (((cfg1.win 2).blk t).view.emb j (1 : Fin 2)).val := by
    show (j 1).val = win1_2.index t (1 : Fin 2) * 128 + 1 * (j 1).val
    omega
  have h0 : (iblk1 V c 0 t : Vec Ideal S5000x128 .f32) j
      = (V c main_v43 : S100000x128.Idx → EReal) (((cfg1.win 2).blk t).view.emb j) := by
    show V c main_v43 (((cfg1.win 0).blk t).view.emb j) = _
    refine congrArg (V c main_v43) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * (j 1).val = win1_2.index t (1 : Fin 2) * 128 + 1 * (j 1).val
      omega
  have h1 : (iblk1 V c 1 t : Vec Ideal S1x128 .f32) = (V c main_v44 : S1x128.Idx → EReal) := by
    funext y
    show V c main_v44 (((cfg1.win 1).blk t).view.emb y) = V c main_v44 y
    refine congrArg (V c main_v44) (funext fun a => Fin.ext ?_)
    match a with
    | ⟨0, _⟩ =>
      show win1_1.index t (0 : Fin 2) * 1 + 1 * (y 0).val = (y 0).val
      omega
    | ⟨1, _⟩ =>
      show win1_1.index t (1 : Fin 2) * 128 + 1 * (y 1).val = (y 1).val
      omega
  exact point (V c main_v43) (V c main_v44) (iblk1 V c 0 t) (iblk1 V c 1 t) j (((cfg1.win 2).blk t).view.emb j) hc h0 h1

/-- An index of the result array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45).slice (win1_2.rect t)).set ↔ _
  rw [View.set_slice_whole, Rect.mem_set_unit]
  exact Iff.rfl

/-- Row `r` of the result lies in the block of point `r / 5000`: the blocks tile the array. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := idx t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- The result array after the region: the layer of the two arrays the region found. -/
theorem arr (c : Dev nD) : (dat1 V c).arrAt 2 cfg1.N = (Cert.Layers.rect (Cert.Layers.addRow (V c main_v43 : S100000x128.Idx → EReal) (V c main_v44 : S1x128.Idx → EReal))) :=
  (dat1 V c).arrAt_eq_of_cover 2 _ (fun t _ => flushed V c t) cover

end Cert.KernelIdeal.Region1

end
-- ==== Proof.Region2.lean ====
/-
  Region 2: the row-by-column product of a [100000, 128] array with the [128, 64] weights, computed on twenty blocks of
  5000 rows.  A block's entry (p, q) is the sum over k of the block's (p, k) times the weights' (k, q)
  (the rounding of the operands to the narrower format is the identity on the extended reals, and the accumulator starts
  at the zero word); block t holds rows 5000 t … 5000 t + 4999 of the array and the weights' window is the whole matrix, so
  the entry is the array's product at row 5000 t + p.  The twenty blocks tile the result, which therefore ends holding the
  product of the two arrays as the region found them.
-/
import proofs.«164824_j89300960019182_1_alg».proof.Proof.Gen.KernelIdeal.Frame
import proofs.«164824_j89300960019182_1_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the row operand and the result move with the point, the
    weights stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of a block's result against the whole arrays: if the block's row is the array's row and the weights'
    block is the weights, the body's value is the arrays' product there. -/
theorem point (X : S100000x128.Idx → EReal) (W : S128x64.Idx → EReal) (x0 : Vec Ideal S5000x128 .f32) (x1 : Vec Ideal S128x64 .f32)
    (j : S5000x64.Idx) (i : S100000x64.Idx) (hc : (j 1).val = (i 1).val)
    (h0 : ∀ k : Fin 128, x0 (ix2 (j 0) k) = X (ix2 (i 0) k)) (h1 : x1 = W) :
    k2_pay1 x0 x1 j = LibDense.prod X W i := by
  subst h1
  unfold k2_pay1
  simp only [shapeCast_self]
  refine (LibDense.matmul_plain (M := 5000) (K := 128) (N := 64) _ _ j).trans ?_
  refine Cert.Layers.prod_congr _ _ _ _ j i (fun k => ?_) (fun k => ?_)
  · exact h0 k
  · exact congrArg x1 (funext fun a => Fin.ext (by
      match a with
      | ⟨0, _⟩ => rfl
      | ⟨1, _⟩ => exact hc))

/-- What point `t` writes back is block `t` of the product of the arrays the region found. -/
theorem flushed (c : Dev nD) (t : Fin cfg2.N) :
    (dat2 V c).flushed 2 t = ((cfg2.win 2).blk t).view.read (Elt Ideal) (LibDense.prod (V c main_v45 : S100000x128.Idx → EReal) (V c main_arg4 : S128x64.Idx → EReal)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx t
  funext j
  have hc : ((j : S5000x64.Idx) 1).val = (((cfg2.win 2).blk t).view.emb j (1 : Fin 2)).val := by
    show (j 1).val = win2_2.index t (1 : Fin 2) * 64 + 1 * (j 1).val
    omega
  have h0 : ∀ k : Fin 128, (iblk2 V c 0 t : Vec Ideal S5000x128 .f32) (ix2 ((j : S5000x64.Idx) 0) k)
      = (V c main_v45 : S100000x128.Idx → EReal) (ix2 ((((cfg2.win 2).blk t).view.emb j : S100000x64.Idx) 0) k) := by
    intro k
    show V c main_v45 (((cfg2.win 0).blk t).view.emb (ix2 ((j : S5000x64.Idx) 0) k)) = _
    refine congrArg (V c main_v45) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  have h1 : (iblk2 V c 1 t : Vec Ideal S128x64 .f32) = (V c main_arg4 : S128x64.Idx → EReal) := by
    funext y
    show V c main_arg4 (((cfg2.win 1).blk t).view.emb y) = V c main_arg4 y
    refine congrArg (V c main_arg4) (funext fun a => Fin.ext ?_)
    match a with
    | ⟨0, _⟩ =>
      show win2_1.index t (0 : Fin 2) * 128 + 1 * (y 0).val = (y 0).val
      omega
    | ⟨1, _⟩ =>
      show win2_1.index t (1 : Fin 2) * 64 + 1 * (y 1).val = (y 1).val
      omega
  exact point (V c main_v45) (V c main_arg4) (iblk2 V c 0 t) (iblk2 V c 1 t) j (((cfg2.win 2).blk t).view.emb j) hc h0 h1

/-- An index of the result array is in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v46).slice (win2_2.rect t)).set ↔ _
  rw [View.set_slice_whole, Rect.mem_set_unit]
  exact Iff.rfl

/-- Row `r` of the result lies in the block of point `r / 5000`: the blocks tile the array. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e0, e1, e2, e3, e4, e5⟩ := idx t
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 64 ≤ (i 1).val ∧ (i 1).val < win2_2.index t (1 : Fin 2) * 64 + 64
    omega

/-- The result array after the region: the product of the two arrays the region found. -/
theorem arr (c : Dev nD) : (dat2 V c).arrAt 2 cfg2.N = (LibDense.prod (V c main_v45 : S100000x128.Idx → EReal) (V c main_arg4 : S128x64.Idx → EReal)) :=
  (dat2 V c).arrAt_eq_of_cover 2 _ (fun t _ => flushed V c t) cover

end Cert.KernelIdeal.Region2

end
-- ==== Proof.Region3.lean ====
/-
  Region 3: a bias row added to every row of a [100000, 64] array, computed on twenty blocks of 5000 rows.
  A block's entry (p, q) is the block's entry plus the bias row's entry q; block t holds rows
  5000 t … 5000 t + 4999 of the array and the bias row's window is the whole row, so the entry is the layer's value at row
  5000 t + p.  The twenty blocks tile the result, which therefore ends holding the layer of the two arrays as the region
  found them.
-/
import proofs.«164824_j89300960019182_1_alg».proof.Proof.Gen.KernelIdeal.Frame
import proofs.«164824_j89300960019182_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the row operand and the result move with the point, the
    bias row stays. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One entry of a block's result against the whole arrays: if the block's entry is the array's entry and the bias
    row's block is the bias row, the body's value is the layer's value there. -/
theorem point (X : S100000x64.Idx → EReal) (B : S1x64.Idx → EReal) (x0 : Vec Ideal S5000x64 .f32) (x1 : Vec Ideal S1x64 .f32)
    (j : S5000x64.Idx) (i : S100000x64.Idx) (hc : (j 1).val = (i 1).val) (h0 : x0 j = X i) (h1 : x1 = B) :
    k3_pay1 x0 x1 j = Cert.Layers.addRow X B i := by
  subst h1
  obtain ⟨p, q, rfl⟩ : ∃ (p : Fin 5000) (q : Fin 64), j = ix2 p q := ⟨j 0, j 1, eq_ix2 j⟩
  have hq : (q : Fin 64) = i 1 := Fin.ext hc
  unfold k3_pay1
  simp only [shapeCast_self]
  show x0 (ix2 p q) + broadcastTo S5000x64 x1 broadcasts_S1x64_S5000x64 (ix2 p q) = X i + x1 (ix2 (0 : Fin 1) (i 1))
  rw [broadcastTo_1b_ab_apply, h0, hq]

/-- What point `t` writes back is block `t` of the layer of the arrays the region found. -/
theorem flushed (c : Dev nD) (t : Fin cfg3.N) :
    (dat3 V c).flushed 2 t = ((cfg3.win 2).blk t).view.read (Elt Ideal) (Cert.Layers.addRow (V c main_v74 : S100000x64.Idx → EReal) (V c main_v75 : S1x64.Idx → EReal)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx t
  funext j
  have hc : ((j : S5000x64.Idx) 1).val = (((cfg3.win 2).blk t).view.emb j (1 : Fin 2)).val := by
    show (j 1).val = win3_2.index t (1 : Fin 2) * 64 + 1 * (j 1).val
    omega
  have h0 : (iblk3 V c 0 t : Vec Ideal S5000x64 .f32) j
      = (V c main_v74 : S100000x64.Idx → EReal) (((cfg3.win 2).blk t).view.emb j) := by
    show V c main_v74 (((cfg3.win 0).blk t).view.emb j) = _
    refine congrArg (V c main_v74) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 64 + 1 * (j 1).val = win3_2.index t (1 : Fin 2) * 64 + 1 * (j 1).val
      omega
  have h1 : (iblk3 V c 1 t : Vec Ideal S1x64 .f32) = (V c main_v75 : S1x64.Idx → EReal) := by
    funext y
    show V c main_v75 (((cfg3.win 1).blk t).view.emb y) = V c main_v75 y
    refine congrArg (V c main_v75) (funext fun a => Fin.ext ?_)
    match a with
    | ⟨0, _⟩ =>
      show win3_1.index t (0 : Fin 2) * 1 + 1 * (y 0).val = (y 0).val
      omega
    | ⟨1, _⟩ =>
      show win3_1.index t (1 : Fin 2) * 64 + 1 * (y 1).val = (y 1).val
      omega
  exact point (V c main_v74) (V c main_v75) (iblk3 V c 0 t) (iblk3 V c 1 t) j (((cfg3.win 2).blk t).view.emb j) hc h0 h1

/-- An index of the result array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v76).slice (win3_2.rect t)).set ↔ _
  rw [View.set_slice_whole, Rect.mem_set_unit]
  exact Iff.rfl

/-- Row `r` of the result lies in the block of point `r / 5000`: the blocks tile the array. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4, e5⟩ := idx t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- The result array after the region: the layer of the two arrays the region found. -/
theorem arr (c : Dev nD) : (dat3 V c).arrAt 2 cfg3.N = (Cert.Layers.addRow (V c main_v74 : S100000x64.Idx → EReal) (V c main_v75 : S1x64.Idx → EReal)) :=
  (dat3 V c).arrAt_eq_of_cover 2 _ (fun t _ => flushed V c t) cover

end Cert.KernelIdeal.Region3

end
-- ==== Proof.Region4.lean ====
/-
  Region 4: the row-by-column product of the rectified [100000, 64] array with the [64, 5] weights, computed on twenty
  blocks of 5000 rows.  A block's entry (p, q) is the sum over k of the block's (p, k) times the weights' (k, q)
  (the rounding of the operands to the narrower format is the identity on the extended reals, and the accumulator starts
  at the zero word); block t holds rows 5000 t … 5000 t + 4999 of the array and the weights' window is the whole matrix, so
  the entry is the array's product at row 5000 t + p.  The twenty blocks tile the result, which therefore ends holding the
  product of the two arrays as the region found them.
-/
import proofs.«164824_j89300960019182_1_alg».proof.Proof.Gen.KernelIdeal.Frame
import proofs.«164824_j89300960019182_1_alg».proof.Proof.Spec
import Idealize.ShloMosaic.Lib.Pipeline.Value
import Idealize.ShloMosaic.Lib.ValueIdx

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the row operand and the result move with the point, the
    weights stay. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- One entry of a block's result against the whole arrays: if the block's row is the array's row and the weights'
    block is the weights, the body's value is the arrays' product there. -/
theorem point (X : S100000x64.Idx → EReal) (W : S64x5.Idx → EReal) (x0 : Vec Ideal S5000x64 .f32) (x1 : Vec Ideal S64x5 .f32)
    (j : S5000x5.Idx) (i : S100000x5.Idx) (hc : (j 1).val = (i 1).val)
    (h0 : ∀ k : Fin 64, x0 (ix2 (j 0) k) = X (ix2 (i 0) k)) (h1 : x1 = W) :
    k4_pay1 x0 x1 j = LibDense.prod (Cert.Layers.rect X) W i := by
  subst h1
  unfold k4_pay1
  simp only [shapeCast_self]
  refine (LibDense.matmul_plain (M := 5000) (K := 64) (N := 5) _ _ j).trans ?_
  refine Cert.Layers.prod_congr _ _ _ _ j i (fun k => ?_) (fun k => ?_)
  · show max (x0 (ix2 (j 0) k)) Cert.Layers.zeroW = max (X (ix2 (i 0) k)) Cert.Layers.zeroW
    rw [h0 k]
  · exact congrArg x1 (funext fun a => Fin.ext (by
      match a with
      | ⟨0, _⟩ => rfl
      | ⟨1, _⟩ => exact hc))

/-- What point `t` writes back is block `t` of the product of the arrays the region found. -/
theorem flushed (c : Dev nD) (t : Fin cfg4.N) :
    (dat4 V c).flushed 2 t = ((cfg4.win 2).blk t).view.read (Elt Ideal) (LibDense.prod (Cert.Layers.rect (V c main_v76 : S100000x64.Idx → EReal)) (V c main_arg6 : S64x5.Idx → EReal)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x5) hz]
  obtain ⟨e0, e1, e2, e3, e4, e5⟩ := idx t
  funext j
  have hc : ((j : S5000x5.Idx) 1).val = (((cfg4.win 2).blk t).view.emb j (1 : Fin 2)).val := by
    show (j 1).val = win4_2.index t (1 : Fin 2) * 5 + 1 * (j 1).val
    omega
  have h0 : ∀ k : Fin 64, (iblk4 V c 0 t : Vec Ideal S5000x64 .f32) (ix2 ((j : S5000x5.Idx) 0) k)
      = (V c main_v76 : S100000x64.Idx → EReal) (ix2 ((((cfg4.win 2).blk t).view.emb j : S100000x5.Idx) 0) k) := by
    intro k
    show V c main_v76 (((cfg4.win 0).blk t).view.emb (ix2 ((j : S5000x5.Idx) 0) k)) = _
    refine congrArg (V c main_v76) (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 64 + 1 * k.val = k.val
      omega
  have h1 : (iblk4 V c 1 t : Vec Ideal S64x5 .f32) = (V c main_arg6 : S64x5.Idx → EReal) := by
    funext y
    show V c main_arg6 (((cfg4.win 1).blk t).view.emb y) = V c main_arg6 y
    refine congrArg (V c main_arg6) (funext fun a => Fin.ext ?_)
    match a with
    | ⟨0, _⟩ =>
      show win4_1.index t (0 : Fin 2) * 64 + 1 * (y 0).val = (y 0).val
      omega
    | ⟨1, _⟩ =>
      show win4_1.index t (1 : Fin 2) * 5 + 1 * (y 1).val = (y 1).val
      omega
  exact point (V c main_v76) (V c main_arg6) (iblk4 V c 0 t) (iblk4 V c 1 t) j (((cfg4.win 2).blk t).view.emb j) hc h0 h1

/-- An index of the result array is in point `t`'s block iff each coordinate is in the block's range on its axis. -/
theorem mem_blk (t : Fin cfg4.N) (i : S100000x5.Idx) :
    i ∈ ((cfg4.win 2).blk t).view.set ↔ ∀ a : Fin 2, win4_2.index t a * S5000x5.size a ≤ (i a).val
      ∧ (i a).val < win4_2.index t a * S5000x5.size a + S5000x5.size a := by
  show i ∈ ((View.whole main_v77).slice (win4_2.rect t)).set ↔ _
  rw [View.set_slice_whole, Rect.mem_set_unit]
  exact Iff.rfl

/-- Row `r` of the result lies in the block of point `r / 5000`: the blocks tile the array. -/
theorem cover (i : S100000x5.Idx) : ∃ t : Fin cfg4.N, (cfg4.win 2).flush t = true ∧ i ∈ ((cfg4.win 2).blk t).view.set := by
  have hi0 : (i 0).val < 100000 := (i 0).isLt
  have hi1 : (i 1).val < 5 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨e0, e1, e2, e3, e4, e5⟩ := idx t
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 5 ≤ (i 1).val ∧ (i 1).val < win4_2.index t (1 : Fin 2) * 5 + 5
    omega

/-- The result array after the region: the product of the two arrays the region found. -/
theorem arr (c : Dev nD) : (dat4 V c).arrAt 2 cfg4.N = (LibDense.prod (Cert.Layers.rect (V c main_v76 : S100000x64.Idx → EReal)) (V c main_arg6 : S64x5.Idx → EReal)) :=
  (dat4 V c).arrAt_eq_of_cover 2 _ (fun t _ => flushed V c t) cover

end Cert.KernelIdeal.Region4

end
-- ==== Proof.LibLogSoftmax.lean ====
/-
  The row-wise log-softmax on the extended reals, as both programs compute it, and the two column forms it needs.

  For a row `z : Fin d → EReal`: its maximum `M` is taken as the fold of `max` over the row from the word of minus
  infinity, joined once more with that word; the shifted row is `z k - M`; the result at column `q` is
  `(z q - M) - log (∑ k, exp (z k - M))`. Nothing here needs the entries to be finite: the statement is only that the
  result at a row depends on that row alone.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibLogSoftmax

open Idealize.ShloMosaic Idealize.ShloMosaic.ValueIdx

/-- The value of the word of minus infinity. -/
abbrev negInf : EReal := Ideal.ofBits .f32 0xFF800000#32

/-- A row's maximum: the fold of `max` from minus infinity, joined with minus infinity. -/
def rowMax {d : ℕ} (row : Fin d → EReal) : EReal :=
  max negInf ((Finset.univ : Finset (Fin d)).fold max negInf row)

/-- The log-softmax of a row at column `q`. -/
def lsmRow {d : ℕ} (row : Fin d → EReal) (q : Fin d) : EReal :=
  (row q - rowMax row) - Ideal.log (∑ k : Fin d, Ideal.exp (row k - rowMax row))

/-- Row-wise log-softmax of an `[n, d]` array. -/
def logSoftmax {n d : ℕ} (z : (⟨2, ![n, d]⟩ : Shape).Idx → EReal) : (⟨2, ![n, d]⟩ : Shape).Idx → EReal :=
  fun i => lsmRow (fun k => z (ix2 (i 0) k)) (i 1)

/-- Two arrays that agree along a row (each its own row) have the same log-softmax at any column of it. -/
theorem logSoftmax_congr {n n' d : ℕ} (z : (⟨2, ![n, d]⟩ : Shape).Idx → EReal) (z' : (⟨2, ![n', d]⟩ : Shape).Idx → EReal)
    (i : (⟨2, ![n, d]⟩ : Shape).Idx) (i' : (⟨2, ![n', d]⟩ : Shape).Idx) (hcol : (i 1).val = (i' 1).val)
    (hrow : ∀ k : Fin d, z (ix2 (i 0) k) = z' (ix2 (i' 0) k)) : logSoftmax z i = logSoftmax z' i' := by
  unfold logSoftmax
  have hr : (fun k : Fin d => z (ix2 (i 0) k)) = fun k : Fin d => z' (ix2 (i' 0) k) := funext hrow
  have hc : (i 1 : Fin d) = (i' 1 : Fin d) := Fin.ext hcol
  rw [hr, hc]

/-! ## The two column forms: a vector as a column, and a column broadcast along the rows -/

/-- A vector `v : [n]` cast to the column `[n, 1]`, at (r, 0), is `v r`. -/
theorem col_cast {n : ℕ} (v : (⟨1, ![n]⟩ : Shape).Idx → EReal) (h : (⟨1, ![n]⟩ : Shape).ShapeCasts ⟨2, ![n, 1]⟩)
    (y : (⟨2, ![n, 1]⟩ : Shape).Idx) : shapeCast ⟨2, ![n, 1]⟩ v h y = v (ix1 (y 0)) := by
  refine shapeCast_apply v h y (ix1 (y 0)) ?_
  rw [Shape.rowMajor_val_one, Shape.rowMajor_val_two]
  have h1 : (y 1).val < 1 := idx2_lt1 y
  show (y 0).val = (y 0).val * 1 + (y 1).val
  omega

/-- A column `u : [n, 1]` broadcast to `[n, d]`, at (r, j), is `u (r, 0)`. -/
theorem col_bcast {n d : ℕ} (u : (⟨2, ![n, 1]⟩ : Shape).Idx → EReal) (h : (⟨2, ![n, 1]⟩ : Shape).Broadcasts ⟨2, ![n, d]⟩)
    (i : (⟨2, ![n, d]⟩ : Shape).Idx) : broadcastTo ⟨2, ![n, d]⟩ u h i = u (ix2 (i 0) ⟨0, Nat.one_pos⟩) := by
  refine broadcastTo_apply u h i (ix2 (i 0) ⟨0, Nat.one_pos⟩) (fun a => ?_)
  match a with
  | ⟨0, _⟩ =>
    show (i 0).val = if n = 1 then 0 else (i 0).val
    have hlt : (i 0).val < n := idx2_lt0 i
    split
    · omega
    · rfl
  | ⟨1, _⟩ => exact (if_pos rfl).symm

end Cert.LibLogSoftmax

end
-- ==== Proof.Region5.lean ====
/-
  Region 5: a bias row added to every row of a [100000, 5] array, then every row normalised, computed on twenty
  blocks of 5000 rows.

  With the biased row `z` of a block: `μ = (∑ z) / 5`, `σ² = (∑ (z - μ)²) / 5`, and the entry at column q is
  `((z q - μ) · rsqrt (σ² + ε)) · g q + b q` for the gain row g and the shift row b.  On the vector unit the two sums
  are lane reductions, each cast to a column of 5000 entries, divided by the word of 5.0 and broadcast back along the
  rows; the body is first named stage by stage (`biased`, `colStat`, `centred`, `scale`) and each stage is read at an
  entry.  An entry of a block reads only its own row of the block, block t holds rows 5000 t … 5000 t + 4999 of the array,
  and the three small rows' windows are the whole rows; so the entry is the layer's value at row 5000 t + p.  The twenty
  blocks tile the result, which ends holding the layer of the four arrays as the region found them.
-/
import proofs.«164824_j89300960019182_1_alg».proof.Proof.Gen.KernelIdeal.Frame
import proofs.«164824_j89300960019182_1_alg».proof.Proof.Spec
import proofs.«164824_j89300960019182_1_alg».proof.Proof.LibLogSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat)
open Cert.Layers

/-! ## The body, stage by stage -/

/-- The block with the bias row added to every row. -/
def biased (x0 : Vec Ideal S5000x5 .f32) (x1 : Vec Ideal S1x5 .f32) : FVec Ideal S5000x5 .f32 :=
  addf x0 (broadcastTo S5000x5 x1 broadcasts_S1x5_S5000x5)

/-- A statistic of every row as a column: the row's sum, cast to a column, divided by the word of 5.0. -/
def colStat (v : FVec Ideal S5000x5 .f32) : FVec Ideal S5000x1 .f32 :=
  divf (shapeCast S5000x1 (multiReduction .add [1] S5000 v 0x00000000#32 reduces_S5000x5_S5000 (.inl rfl) rfl) shapeCasts_S5000_S5000x1)
    (broadcast S5000x1 (Scalar.ofBits .f32 0x40A00000#32))

/-- Every row less its mean. -/
def centred (v : FVec Ideal S5000x5 .f32) : FVec Ideal S5000x5 .f32 :=
  subf v (broadcastTo S5000x5 (colStat v) broadcasts_S5000x1_S5000x5)

/-- The column of reciprocal square roots of the shifted row variances. -/
def scale (v : FVec Ideal S5000x5 .f32) : FVec Ideal S5000x1 .f32 :=
  rsqrt (addf (colStat (mulf (centred v) (centred v))) (broadcast S5000x1 (Scalar.ofBits .f32 0x3727C5AC#32)))

/-- The body's value is the stages composed. -/
theorem pay_eq (x0 : Vec Ideal S5000x5 .f32) (x1 x2 x3 : Vec Ideal S1x5 .f32) :
    k5_pay1 x0 x1 x2 x3
      = addf (mulf (mulf (centred (biased x0 x1)) (broadcastTo S5000x5 (scale (biased x0 x1)) broadcasts_S5000x1_S5000x5))
          (broadcastTo S5000x5 x2 broadcasts_S1x5_S5000x5)) (broadcastTo S5000x5 x3 broadcasts_S1x5_S5000x5) := by
  unfold k5_pay1
  simp only [shapeCast_self]
  rfl

/-- A row's sum on the vector unit. -/
theorem rowSum (v : FVec Ideal S5000x5 .f32) (a : Fin 5000) :
    multiReduction .add [1] S5000 v 0x00000000#32 reduces_S5000x5_S5000 (.inl rfl) rfl (ix1 a) = ∑ k : Fin 5, v (ix2 a k) := by
  refine (Ideal.multiReduction_add_single v _ reduces_S5000x5_S5000 _ _ (ix1 a)).trans ?_
  refine Finset.sum_congr rfl fun k _ => congrArg v (funext fun d => ?_)
  match d with
  | ⟨0, _⟩ => rfl
  | ⟨1, _⟩ => rfl

theorem biased_apply (x0 : Vec Ideal S5000x5 .f32) (x1 : Vec Ideal S1x5 .f32) (a : Fin 5000) (k : Fin 5) :
    biased x0 x1 (ix2 a k) = addRow x0 x1 (ix2 a k) :=
  congrArg (x0 (ix2 a k) + ·) (broadcastTo_1b_ab_apply x1 broadcasts_S1x5_S5000x5 a k)

theorem colStat_apply (v : FVec Ideal S5000x5 .f32) (a : Fin 5000) (u : Fin 1) :
    colStat v (ix2 a u) = rowMean (fun k => v (ix2 a k)) :=
  congrArg (fun s => Ideal.div s fiveW)
    ((Cert.LibLogSoftmax.col_cast _ shapeCasts_S5000_S5000x1 (ix2 a u)).trans (rowSum v a))

theorem centred_apply (v : FVec Ideal S5000x5 .f32) (a : Fin 5000) (k : Fin 5) :
    centred v (ix2 a k) = v (ix2 a k) - rowMean (fun k' => v (ix2 a k')) :=
  congrArg (v (ix2 a k) - ·)
    ((Cert.LibLogSoftmax.col_bcast (colStat v) broadcasts_S5000x1_S5000x5 (ix2 a k)).trans (colStat_apply v a _))

theorem scale_apply (v : FVec Ideal S5000x5 .f32) (a : Fin 5000) (u : Fin 1) :
    scale v (ix2 a u) = Ideal.rsqrt (rowVar (fun k => v (ix2 a k)) + epsW) := by
  show Ideal.rsqrt (colStat (mulf (centred v) (centred v)) (ix2 a u) + epsW) = _
  rw [colStat_apply]
  refine congrArg (fun s => Ideal.rsqrt (Ideal.div s fiveW + epsW)) (Finset.sum_congr rfl fun k _ => ?_)
  show centred v (ix2 a k) * centred v (ix2 a k) = _
  rw [centred_apply]

/-- The body at an entry of the block is the normalisation of the block's own biased row. -/
theorem body (x0 : Vec Ideal S5000x5 .f32) (x1 x2 x3 : Vec Ideal S1x5 .f32) (p : Fin 5000) (q : Fin 5) :
    k5_pay1 x0 x1 x2 x3 (ix2 p q) = layerNorm (addRow x0 x1) x2 x3 (ix2 p q) := by
  rw [pay_eq]
  show (centred (biased x0 x1) (ix2 p q) * broadcastTo S5000x5 (scale (biased x0 x1)) broadcasts_S5000x1_S5000x5 (ix2 p q))
      * broadcastTo S5000x5 x2 broadcasts_S1x5_S5000x5 (ix2 p q) + broadcastTo S5000x5 x3 broadcasts_S1x5_S5000x5 (ix2 p q) = _
  rw [centred_apply, broadcastTo_1b_ab_apply, broadcastTo_1b_ab_apply,
    (Cert.LibLogSoftmax.col_bcast (scale (biased x0 x1)) broadcasts_S5000x1_S5000x5 (ix2 p q)).trans (scale_apply _ p _)]
  have hrow : (fun k : Fin 5 => biased x0 x1 (ix2 p k)) = fun k : Fin 5 => addRow x0 x1 (ix2 p k) :=
    funext fun k => biased_apply x0 x1 p k
  rw [hrow, biased_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The block indices of the five windows at a grid point: the row operand and the result move with the point, the
    three small rows stay. -/
theorem idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- One entry of a block's result against the whole arrays: if the block's row is the array's row and the three
    small rows' blocks are the rows, the body's value is the layer's value there. -/
theorem point (X : S100000x5.Idx → EReal) (B G Bt : S1x5.Idx → EReal) (x0 : Vec Ideal S5000x5 .f32) (x1 x2 x3 : Vec Ideal S1x5 .f32)
    (j : S5000x5.Idx) (i : S100000x5.Idx) (hc : (j 1).val = (i 1).val)
    (h0 : ∀ k : Fin 5, x0 (ix2 (j 0) k) = X (ix2 (i 0) k)) (h1 : x1 = B) (h2 : x2 = G) (h3 : x3 = Bt) :
    k5_pay1 x0 x1 x2 x3 j = layerNorm (addRow X B) G Bt i := by
  subst h1 h2 h3
  obtain ⟨p, q, rfl⟩ : ∃ (p : Fin 5000) (q : Fin 5), j = ix2 p q := ⟨j 0, j 1, eq_ix2 j⟩
  refine (body x0 x1 x2 x3 p q).trans ?_
  refine layerNorm_congr _ _ _ _ (ix2 p q) i hc (fun k => ?_)
  show x0 (ix2 p k) + x1 (ix2 (0 : Fin 1) k) = X (ix2 (i 0) k) + x1 (ix2 (0 : Fin 1) k)
  rw [h0 k]

/-- What point `t` writes back is block `t` of the layer of the arrays the region found. -/
theorem flushed (c : Dev nD) (t : Fin cfg5.N) :
    (dat5 V c).flushed 4 t = ((cfg5.win 4).blk t).view.read (Elt Ideal)
      (layerNorm (addRow (V c main_v77 : S100000x5.Idx → EReal) (V c main_v78 : S1x5.Idx → EReal))
        (V c main_v79 : S1x5.Idx → EReal) (V c main_v80 : S1x5.Idx → EReal)) := by
  show (cfg5.win 4).cut (grid5.coords t) ((dat5 V c).after 4 t) = _
  rw [after5_4]
  unfold out5_4
  rw [View.canon_unit_zero hz]
  simp only [View.ld_unit_zero (S := S5000x5) hz, View.ld_unit_zero (S := S1x5) hz]
  obtain ⟨e0, e1, e2, e3, e4, e5, e6, e7, e8, e9⟩ := idx t
  funext j
  have hc : ((j : S5000x5.Idx) 1).val = (((cfg5.win 4).blk t).view.emb j (1 : Fin 2)).val := by
    show (j 1).val = win5_4.index t (1 : Fin 2) * 5 + 1 * (j 1).val
    omega
  have h0 : ∀ k : Fin 5, (iblk5 V c 0 t : Vec Ideal S5000x5 .f32) (ix2 ((j : S5000x5.Idx) 0) k)
      = (V c main_v77 : S100000x5.Idx → EReal) (ix2 ((((cfg5.win 4).blk t).view.emb j : S100000x5.Idx) 0) k) := by
    intro k
    show V c main_v77 (((cfg5.win 0).blk t).view.emb (ix2 ((j : S5000x5.Idx) 0) k)) = _
    refine congrArg (V c main_v77) (funext fun a => Fin.ext ?_)
    match a with
    | ⟨0, _⟩ =>
      show win5_0.index t (0 : Fin 2) * 5000 + 1 * (j 0).val = win5_4.index t (0 : Fin 2) * 5000 + 1 * (j 0).val
      omega
    | ⟨1, _⟩ =>
      show win5_0.index t (1 : Fin 2) * 5 + 1 * k.val = k.val
      omega
  have h1 : (iblk5 V c 1 t : Vec Ideal S1x5 .f32) = (V c main_v78 : S1x5.Idx → EReal) := by
    funext y
    show V c main_v78 (((cfg5.win 1).blk t).view.emb y) = V c main_v78 y
    refine congrArg (V c main_v78) (funext fun a => Fin.ext ?_)
    match a with
    | ⟨0, _⟩ =>
      show win5_1.index t (0 : Fin 2) * 1 + 1 * (y 0).val = (y 0).val
      omega
    | ⟨1, _⟩ =>
      show win5_1.index t (1 : Fin 2) * 5 + 1 * (y 1).val = (y 1).val
      omega
  have h2 : (iblk5 V c 2 t : Vec Ideal S1x5 .f32) = (V c main_v79 : S1x5.Idx → EReal) := by
    funext y
    show V c main_v79 (((cfg5.win 2).blk t).view.emb y) = V c main_v79 y
    refine congrArg (V c main_v79) (funext fun a => Fin.ext ?_)
    match a with
    | ⟨0, _⟩ =>
      show win5_2.index t (0 : Fin 2) * 1 + 1 * (y 0).val = (y 0).val
      omega
    | ⟨1, _⟩ =>
      show win5_2.index t (1 : Fin 2) * 5 + 1 * (y 1).val = (y 1).val
      omega
  have h3 : (iblk5 V c 3 t : Vec Ideal S1x5 .f32) = (V c main_v80 : S1x5.Idx → EReal) := by
    funext y
    show V c main_v80 (((cfg5.win 3).blk t).view.emb y) = V c main_v80 y
    refine congrArg (V c main_v80) (funext fun a => Fin.ext ?_)
    match a with
    | ⟨0, _⟩ =>
      show win5_3.index t (0 : Fin 2) * 1 + 1 * (y 0).val = (y 0).val
      omega
    | ⟨1, _⟩ =>
      show win5_3.index t (1 : Fin 2) * 5 + 1 * (y 1).val = (y 1).val
      omega
  exact point (V c main_v77) (V c main_v78) (V c main_v79) (V c main_v80) (iblk5 V c 0 t) (iblk5 V c 1 t) (iblk5 V c 2 t) (iblk5 V c 3 t)
    j (((cfg5.win 4).blk t).view.emb j) hc h0 h1 h2 h3

/-- An index of the result array is in point `t`'s block iff each coordinate is in the block's range on its axis. -/
theorem mem_blk (t : Fin cfg5.N) (i : S100000x5.Idx) :
    i ∈ ((cfg5.win 4).blk t).view.set ↔ ∀ a : Fin 2, win5_4.index t a * S5000x5.size a ≤ (i a).val
      ∧ (i a).val < win5_4.index t a * S5000x5.size a + S5000x5.size a := by
  show i ∈ ((View.whole main_v81).slice (win5_4.rect t)).set ↔ _
  rw [View.set_slice_whole, Rect.mem_set_unit]
  exact Iff.rfl

/-- Row `r` of the result lies in the block of point `r / 5000`: the blocks tile the array. -/
theorem cover (i : S100000x5.Idx) : ∃ t : Fin cfg5.N, (cfg5.win 4).flush t = true ∧ i ∈ ((cfg5.win 4).blk t).view.set := by
  have hi0 : (i 0).val < 100000 := (i 0).isLt
  have hi1 : (i 1).val < 5 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨e0, e1, e2, e3, e4, e5, e6, e7, e8, e9⟩ := idx t
  refine ⟨t, flush5_4 t, ?_⟩
  rw [mem_blk]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 5 ≤ (i 1).val ∧ (i 1).val < win5_4.index t (1 : Fin 2) * 5 + 5
    omega

/-- The result array after the region: the layer of the four arrays the region found. -/
theorem arr (c : Dev nD) : (dat5 V c).arrAt 4 cfg5.N
    = (layerNorm (addRow (V c main_v77 : S100000x5.Idx → EReal) (V c main_v78 : S1x5.Idx → EReal))
        (V c main_v79 : S1x5.Idx → EReal) (V c main_v80 : S1x5.Idx → EReal)) :=
  (dat5 V c).arrAt_eq_of_cover 4 _ (fun t _ => flushed V c t) cover

end Cert.KernelIdeal.Region5

end
-- ==== Proof.Region6.lean ====
/-
  Region 6: the row-by-column product of a [100000, 5] array with the [5, 128] weights, computed on twenty blocks of
  5000 rows.  A block's entry (p, q) is the sum over k of the block's (p, k) times the weights' (k, q)
  (the rounding of the operands to the narrower format is the identity on the extended reals, and the accumulator starts
  at the zero word); block t holds rows 5000 t … 5000 t + 4999 of the array and the weights' window is the whole matrix, so
  the entry is the array's product at row 5000 t + p.  The twenty blocks tile the result, which therefore ends holding the
  product of the two arrays as the region found them.
-/
import proofs.«164824_j89300960019182_1_alg».proof.Proof.Gen.KernelIdeal.Frame
import proofs.«164824_j89300960019182_1_alg».proof.Proof.Spec
import Idealize.ShloMosaic.Lib.Pipeline.Value
import Idealize.ShloMosaic.Lib.ValueIdx

set_option maxRecDepth 16384

noncomputable section

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the row operand and the result move with the point, the
    weights stay. -/
theorem idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- One entry of a block's result against the whole arrays: if the block's row is the array's row and the weights'
    block is the weights, the body's value is the arrays' product there. -/
theorem point (X : S100000x5.Idx → EReal) (W : S5x128.Idx → EReal) (x0 : Vec Ideal S5000x5 .f32) (x1 : Vec Ideal S5x128 .f32)
    (j : S5000x128.Idx) (i : S100000x128.Idx) (hc : (j 1).val = (i 1).val)
    (h0 : ∀ k : Fin 5, x0 (ix2 (j 0) k) = X (ix2 (i 0) k)) (h1 : x1 = W) :
    k6_pay1 x0 x1 j = LibDense.prod X W i := by
  subst h1
  unfold k6_pay1
  simp only [shapeCast_self]
  refine (LibDense.matmul_plain (M := 5000) (K := 5) (N := 128) _ _ j).trans ?_
  refine Cert.Layers.prod_congr _ _ _ _ j i (fun k => ?_) (fun k => ?_)
  · exact h0 k
  · exact congrArg x1 (funext fun a => Fin.ext (by
      match a with
      | ⟨0, _⟩ => rfl
      | ⟨1, _⟩ => exact hc))

/-- What point `t` writes back is block `t` of the product of the arrays the region found. -/
theorem flushed (c : Dev nD) (t : Fin cfg6.N) :
    (dat6 V c).flushed 2 t = ((cfg6.win 2).blk t).view.read (Elt Ideal) (LibDense.prod (V c main_v81 : S100000x5.Idx → EReal) (V c main_arg10 : S5x128.Idx → EReal)) := by
  show (cfg6.win 2).cut (grid6.coords t) ((dat6 V c).after 2 t) = _
  rw [after6_2]
  unfold out6_2
  rw [View.canon_unit_zero hz]
  simp only [View.ld_unit_zero (S := S5000x5) hz, View.ld_unit_zero (S := S5x128) hz]
  obtain ⟨e0, e1, e2, e3, e4, e5⟩ := idx t
  funext j
  have hc : ((j : S5000x128.Idx) 1).val = (((cfg6.win 2).blk t).view.emb j (1 : Fin 2)).val := by
    show (j 1).val = win6_2.index t (1 : Fin 2) * 128 + 1 * (j 1).val
    omega
  have h0 : ∀ k : Fin 5, (iblk6 V c 0 t : Vec Ideal S5000x5 .f32) (ix2 ((j : S5000x128.Idx) 0) k)
      = (V c main_v81 : S100000x5.Idx → EReal) (ix2 ((((cfg6.win 2).blk t).view.emb j : S100000x128.Idx) 0) k) := by
    intro k
    show V c main_v81 (((cfg6.win 0).blk t).view.emb (ix2 ((j : S5000x128.Idx) 0) k)) = _
    refine congrArg (V c main_v81) (funext fun a => Fin.ext ?_)
    match a with
    | ⟨0, _⟩ =>
      show win6_0.index t (0 : Fin 2) * 5000 + 1 * (j 0).val = win6_2.index t (0 : Fin 2) * 5000 + 1 * (j 0).val
      omega
    | ⟨1, _⟩ =>
      show win6_0.index t (1 : Fin 2) * 5 + 1 * k.val = k.val
      omega
  have h1 : (iblk6 V c 1 t : Vec Ideal S5x128 .f32) = (V c main_arg10 : S5x128.Idx → EReal) := by
    funext y
    show V c main_arg10 (((cfg6.win 1).blk t).view.emb y) = V c main_arg10 y
    refine congrArg (V c main_arg10) (funext fun a => Fin.ext ?_)
    match a with
    | ⟨0, _⟩ =>
      show win6_1.index t (0 : Fin 2) * 5 + 1 * (y 0).val = (y 0).val
      omega
    | ⟨1, _⟩ =>
      show win6_1.index t (1 : Fin 2) * 128 + 1 * (y 1).val = (y 1).val
      omega
  exact point (V c main_v81) (V c main_arg10) (iblk6 V c 0 t) (iblk6 V c 1 t) j (((cfg6.win 2).blk t).view.emb j) hc h0 h1

/-- An index of the result array is in point `t`'s block iff each coordinate is in the block's range on its axis. -/
theorem mem_blk (t : Fin cfg6.N) (i : S100000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v82).slice (win6_2.rect t)).set ↔ _
  rw [View.set_slice_whole, Rect.mem_set_unit]
  exact Iff.rfl

/-- Row `r` of the result lies in the block of point `r / 5000`: the blocks tile the array. -/
theorem cover (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  obtain ⟨t, ht⟩ : ∃ t : Fin cfg6.N, t.val = (i 0).val / 5000 := ⟨⟨(i 0).val / 5000, by rw [hN]; omega⟩, rfl⟩
  obtain ⟨e0, e1, e2, e3, e4, e5⟩ := idx t
  refine ⟨t, flush6_2 t, ?_⟩
  rw [mem_blk]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 128 ≤ (i 1).val ∧ (i 1).val < win6_2.index t (1 : Fin 2) * 128 + 128
    omega

/-- The result array after the region: the product of the two arrays the region found. -/
theorem arr (c : Dev nD) : (dat6 V c).arrAt 2 cfg6.N = (LibDense.prod (V c main_v81 : S100000x5.Idx → EReal) (V c main_arg10 : S5x128.Idx → EReal)) :=
  (dat6 V c).arrAt_eq_of_cover 2 _ (fun t _ => flushed V c t) cover

end Cert.KernelIdeal.Region6

end
-- ==== Proof.Region7.lean ====
/-
  Region 7: a bias row added to every row of a [100000, 128] array, then the rectifier, computed on twenty blocks of 5000 rows.
  A block's entry (p, q) is the block's entry plus the bias row's entry q, joined with the zero word's value; block t holds rows
  5000 t … 5000 t + 4999 of the array and the bias row's window is the whole row, so the entry is the layer's value at row
  5000 t + p.  The twenty blocks tile the result, which therefore ends holding the layer of the two arrays as the region
  found them.
-/
import proofs.«164824_j89300960019182_1_alg».proof.Proof.Gen.KernelIdeal.Frame
import proofs.«164824_j89300960019182_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region7

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the row operand and the result move with the point, the
    bias row stays. -/
theorem idx : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- One entry of a block's result against the whole arrays: if the block's entry is the array's entry and the bias
    row's block is the bias row, the body's value is the layer's value there. -/
theorem point (X : S100000x128.Idx → EReal) (B : S1x128.Idx → EReal) (x0 : Vec Ideal S5000x128 .f32) (x1 : Vec Ideal S1x128 .f32)
    (j : S5000x128.Idx) (i : S100000x128.Idx) (hc : (j 1).val = (i 1).val) (h0 : x0 j = X i) (h1 : x1 = B) :
    k7_pay1 x0 x1 j = Cert.Layers.rect (Cert.Layers.addRow X B) i := by
  subst h1
  obtain ⟨p, q, rfl⟩ : ∃ (p : Fin 5000) (q : Fin 128), j = ix2 p q := ⟨j 0, j 1, eq_ix2 j⟩
  have hq : (q : Fin 128) = i 1 := Fin.ext hc
  unfold k7_pay1
  simp only [shapeCast_self]
  show max (x0 (ix2 p q) + broadcastTo S5000x128 x1 broadcasts_S1x128_S5000x128 (ix2 p q)) Cert.Layers.zeroW = max (X i + x1 (ix2 (0 : Fin 1) (i 1))) Cert.Layers.zeroW
  rw [broadcastTo_1b_ab_apply, h0, hq]

/-- What point `t` writes back is block `t` of the layer of the arrays the region found. -/
theorem flushed (c : Dev nD) (t : Fin cfg7.N) :
    (dat7 V c).flushed 2 t = ((cfg7.win 2).blk t).view.read (Elt Ideal) (Cert.Layers.rect (Cert.Layers.addRow (V c main_v110 : S100000x128.Idx → EReal) (V c main_v111 : S1x128.Idx → EReal))) := by
  show (cfg7.win 2).cut (grid7.coords t) ((dat7 V c).after 2 t) = _
  rw [after7_2]
  unfold out7_2
  rw [View.canon_unit_zero hz]
  simp only [View.ld_unit_zero (S := S5000x128) hz, View.ld_unit_zero (S := S1x128) hz]
  obtain ⟨e0, e1, e2, e3, e4, e5⟩ := idx t
  funext j
  have hc : ((j : S5000x128.Idx) 1).val = (((cfg7.win 2).blk t).view.emb j (1 : Fin 2)).val := by
    show (j 1).val = win7_2.index t (1 : Fin 2) * 128 + 1 * (j 1).val
    omega
  have h0 : (iblk7 V c 0 t : Vec Ideal S5000x128 .f32) j
      = (V c main_v110 : S100000x128.Idx → EReal) (((cfg7.win 2).blk t).view.emb j) := by
    show V c main_v110 (((cfg7.win 0).blk t).view.emb j) = _
    refine congrArg (V c main_v110) (funext fun a => Fin.ext ?_)
    match a with
    | ⟨0, _⟩ =>
      show win7_0.index t (0 : Fin 2) * 5000 + 1 * (j 0).val = win7_2.index t (0 : Fin 2) * 5000 + 1 * (j 0).val
      omega
    | ⟨1, _⟩ =>
      show win7_0.index t (1 : Fin 2) * 128 + 1 * (j 1).val = win7_2.index t (1 : Fin 2) * 128 + 1 * (j 1).val
      omega
  have h1 : (iblk7 V c 1 t : Vec Ideal S1x128 .f32) = (V c main_v111 : S1x128.Idx → EReal) := by
    funext y
    show V c main_v111 (((cfg7.win 1).blk t).view.emb y) = V c main_v111 y
    refine congrArg (V c main_v111) (funext fun a => Fin.ext ?_)
    match a with
    | ⟨0, _⟩ =>
      show win7_1.index t (0 : Fin 2) * 1 + 1 * (y 0).val = (y 0).val
      omega
    | ⟨1, _⟩ =>
      show win7_1.index t (1 : Fin 2) * 128 + 1 * (y 1).val = (y 1).val
      omega
  exact point (V c main_v110) (V c main_v111) (iblk7 V c 0 t) (iblk7 V c 1 t) j (((cfg7.win 2).blk t).view.emb j) hc h0 h1

/-- An index of the result array is in point `t`'s block iff each coordinate is in the block's range on its axis. -/
theorem mem_blk (t : Fin cfg7.N) (i : S100000x128.Idx) :
    i ∈ ((cfg7.win 2).blk t).view.set ↔ ∀ a : Fin 2, win7_2.index t a * S5000x128.size a ≤ (i a).val
      ∧ (i a).val < win7_2.index t a * S5000x128.size a + S5000x128.size a := by
  show i ∈ ((View.whole main_v112).slice (win7_2.rect t)).set ↔ _
  rw [View.set_slice_whole, Rect.mem_set_unit]
  exact Iff.rfl

/-- Row `r` of the result lies in the block of point `r / 5000`: the blocks tile the array. -/
theorem cover (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  have hN : cfg7.N = 20 := N_7
  obtain ⟨t, ht⟩ : ∃ t : Fin cfg7.N, t.val = (i 0).val / 5000 := ⟨⟨(i 0).val / 5000, by rw [hN]; omega⟩, rfl⟩
  obtain ⟨e0, e1, e2, e3, e4, e5⟩ := idx t
  refine ⟨t, flush7_2 t, ?_⟩
  rw [mem_blk]
  intro a
  match a with
  | ⟨0, _⟩ =>
    show win7_2.index t (0 : Fin 2) * 5000 ≤ (i 0).val ∧ (i 0).val < win7_2.index t (0 : Fin 2) * 5000 + 5000
    omega
  | ⟨1, _⟩ =>
    show win7_2.index t (1 : Fin 2) * 128 ≤ (i 1).val ∧ (i 1).val < win7_2.index t (1 : Fin 2) * 128 + 128
    omega

/-- The result array after the region: the layer of the two arrays the region found. -/
theorem arr (c : Dev nD) : (dat7 V c).arrAt 2 cfg7.N = (Cert.Layers.rect (Cert.Layers.addRow (V c main_v110 : S100000x128.Idx → EReal) (V c main_v111 : S1x128.Idx → EReal))) :=
  (dat7 V c).arrAt_eq_of_cover 2 _ (fun t _ => flushed V c t) cover

end Cert.KernelIdeal.Region7

end
-- ==== Proof.Region8.lean ====
/-
  Region 8: the row-by-column product of a [100000, 128] array with the [128, 128] weights, computed on twenty blocks of
  5000 rows.  A block's entry (p, q) is the sum over k of the block's (p, k) times the weights' (k, q)
  (the rounding of the operands to the narrower format is the identity on the extended reals, and the accumulator starts
  at the zero word); block t holds rows 5000 t … 5000 t + 4999 of the array and the weights' window is the whole matrix, so
  the entry is the array's product at row 5000 t + p.  The twenty blocks tile the result, which therefore ends holding the
  product of the two arrays as the region found them.
-/
import proofs.«164824_j89300960019182_1_alg».proof.Proof.Gen.KernelIdeal.Frame
import proofs.«164824_j89300960019182_1_alg».proof.Proof.Spec
import Idealize.ShloMosaic.Lib.Pipeline.Value
import Idealize.ShloMosaic.Lib.ValueIdx

set_option maxRecDepth 16384

noncomputable section

namespace Cert.KernelIdeal.Region8

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the row operand and the result move with the point, the
    weights stay. -/
theorem idx : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- One entry of a block's result against the whole arrays: if the block's row is the array's row and the weights'
    block is the weights, the body's value is the arrays' product there. -/
theorem point (X : S100000x128.Idx → EReal) (W : S128x128.Idx → EReal) (x0 : Vec Ideal S5000x128 .f32) (x1 : Vec Ideal S128x128 .f32)
    (j : S5000x128.Idx) (i : S100000x128.Idx) (hc : (j 1).val = (i 1).val)
    (h0 : ∀ k : Fin 128, x0 (ix2 (j 0) k) = X (ix2 (i 0) k)) (h1 : x1 = W) :
    k8_pay1 x0 x1 j = LibDense.prod X W i := by
  subst h1
  unfold k8_pay1
  simp only [shapeCast_self]
  refine (LibDense.matmul_plain (M := 5000) (K := 128) (N := 128) _ _ j).trans ?_
  refine Cert.Layers.prod_congr _ _ _ _ j i (fun k => ?_) (fun k => ?_)
  · exact h0 k
  · exact congrArg x1 (funext fun a => Fin.ext (by
      match a with
      | ⟨0, _⟩ => rfl
      | ⟨1, _⟩ => exact hc))

/-- What point `t` writes back is block `t` of the product of the arrays the region found. -/
theorem flushed (c : Dev nD) (t : Fin cfg8.N) :
    (dat8 V c).flushed 2 t = ((cfg8.win 2).blk t).view.read (Elt Ideal) (LibDense.prod (V c main_v112 : S100000x128.Idx → EReal) (V c main_arg12 : S128x128.Idx → EReal)) := by
  show (cfg8.win 2).cut (grid8.coords t) ((dat8 V c).after 2 t) = _
  rw [after8_2]
  unfold out8_2
  rw [View.canon_unit_zero hz]
  simp only [View.ld_unit_zero (S := S5000x128) hz, View.ld_unit_zero (S := S128x128) hz]
  obtain ⟨e0, e1, e2, e3, e4, e5⟩ := idx t
  funext j
  have hc : ((j : S5000x128.Idx) 1).val = (((cfg8.win 2).blk t).view.emb j (1 : Fin 2)).val := by
    show (j 1).val = win8_2.index t (1 : Fin 2) * 128 + 1 * (j 1).val
    omega
  have h0 : ∀ k : Fin 128, (iblk8 V c 0 t : Vec Ideal S5000x128 .f32) (ix2 ((j : S5000x128.Idx) 0) k)
      = (V c main_v112 : S100000x128.Idx → EReal) (ix2 ((((cfg8.win 2).blk t).view.emb j : S100000x128.Idx) 0) k) := by
    intro k
    show V c main_v112 (((cfg8.win 0).blk t).view.emb (ix2 ((j : S5000x128.Idx) 0) k)) = _
    refine congrArg (V c main_v112) (funext fun a => Fin.ext ?_)
    match a with
    | ⟨0, _⟩ =>
      show win8_0.index t (0 : Fin 2) * 5000 + 1 * (j 0).val = win8_2.index t (0 : Fin 2) * 5000 + 1 * (j 0).val
      omega
    | ⟨1, _⟩ =>
      show win8_0.index t (1 : Fin 2) * 128 + 1 * k.val = k.val
      omega
  have h1 : (iblk8 V c 1 t : Vec Ideal S128x128 .f32) = (V c main_arg12 : S128x128.Idx → EReal) := by
    funext y
    show V c main_arg12 (((cfg8.win 1).blk t).view.emb y) = V c main_arg12 y
    refine congrArg (V c main_arg12) (funext fun a => Fin.ext ?_)
    match a with
    | ⟨0, _⟩ =>
      show win8_1.index t (0 : Fin 2) * 128 + 1 * (y 0).val = (y 0).val
      omega
    | ⟨1, _⟩ =>
      show win8_1.index t (1 : Fin 2) * 128 + 1 * (y 1).val = (y 1).val
      omega
  exact point (V c main_v112) (V c main_arg12) (iblk8 V c 0 t) (iblk8 V c 1 t) j (((cfg8.win 2).blk t).view.emb j) hc h0 h1

/-- An index of the result array is in point `t`'s block iff each coordinate is in the block's range on its axis. -/
theorem mem_blk (t : Fin cfg8.N) (i : S100000x128.Idx) :
    i ∈ ((cfg8.win 2).blk t).view.set ↔ ∀ a : Fin 2, win8_2.index t a * S5000x128.size a ≤ (i a).val
      ∧ (i a).val < win8_2.index t a * S5000x128.size a + S5000x128.size a := by
  show i ∈ ((View.whole main_v113).slice (win8_2.rect t)).set ↔ _
  rw [View.set_slice_whole, Rect.mem_set_unit]
  exact Iff.rfl

/-- Row `r` of the result lies in the block of point `r / 5000`: the blocks tile the array. -/
theorem cover (i : S100000x128.Idx) : ∃ t : Fin cfg8.N, (cfg8.win 2).flush t = true ∧ i ∈ ((cfg8.win 2).blk t).view.set := by
  have hi0 : (i 0).val < 100000 := (i 0).isLt
  have hi1 : (i 1).val < 128 := (i 1).isLt
  have hN : cfg8.N = 20 := N_8
  obtain ⟨t, ht⟩ : ∃ t : Fin cfg8.N, t.val = (i 0).val / 5000 := ⟨⟨(i 0).val / 5000, by rw [hN]; omega⟩, rfl⟩
  obtain ⟨e0, e1, e2, e3, e4, e5⟩ := idx t
  refine ⟨t, flush8_2 t, ?_⟩
  rw [mem_blk]
  intro a
  match a with
  | ⟨0, _⟩ =>
    show win8_2.index t (0 : Fin 2) * 5000 ≤ (i 0).val ∧ (i 0).val < win8_2.index t (0 : Fin 2) * 5000 + 5000
    omega
  | ⟨1, _⟩ =>
    show win8_2.index t (1 : Fin 2) * 128 ≤ (i 1).val ∧ (i 1).val < win8_2.index t (1 : Fin 2) * 128 + 128
    omega

/-- The result array after the region: the product of the two arrays the region found. -/
theorem arr (c : Dev nD) : (dat8 V c).arrAt 2 cfg8.N = (LibDense.prod (V c main_v112 : S100000x128.Idx → EReal) (V c main_arg12 : S128x128.Idx → EReal)) :=
  (dat8 V c).arrAt_eq_of_cover 2 _ (fun t _ => flushed V c t) cover

end Cert.KernelIdeal.Region8

end
-- ==== Proof.Region9.lean ====
/-
  Region 9: a bias row added to every row of a [100000, 128] array, computed on twenty blocks of 5000 rows.
  A block's entry (p, q) is the block's entry plus the bias row's entry q; block t holds rows
  5000 t … 5000 t + 4999 of the array and the bias row's window is the whole row, so the entry is the layer's value at row
  5000 t + p.  The twenty blocks tile the result, which therefore ends holding the layer of the two arrays as the region
  found them.
-/
import proofs.«164824_j89300960019182_1_alg».proof.Proof.Gen.KernelIdeal.Frame
import proofs.«164824_j89300960019182_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Region9

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a grid point: the row operand and the result move with the point, the
    bias row stays. -/
theorem idx : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- One entry of a block's result against the whole arrays: if the block's entry is the array's entry and the bias
    row's block is the bias row, the body's value is the layer's value there. -/
theorem point (X : S100000x128.Idx → EReal) (B : S1x128.Idx → EReal) (x0 : Vec Ideal S5000x128 .f32) (x1 : Vec Ideal S1x128 .f32)
    (j : S5000x128.Idx) (i : S100000x128.Idx) (hc : (j 1).val = (i 1).val) (h0 : x0 j = X i) (h1 : x1 = B) :
    k9_pay1 x0 x1 j = Cert.Layers.addRow X B i := by
  subst h1
  obtain ⟨p, q, rfl⟩ : ∃ (p : Fin 5000) (q : Fin 128), j = ix2 p q := ⟨j 0, j 1, eq_ix2 j⟩
  have hq : (q : Fin 128) = i 1 := Fin.ext hc
  unfold k9_pay1
  simp only [shapeCast_self]
  show x0 (ix2 p q) + broadcastTo S5000x128 x1 broadcasts_S1x128_S5000x128 (ix2 p q) = X i + x1 (ix2 (0 : Fin 1) (i 1))
  rw [broadcastTo_1b_ab_apply, h0, hq]

/-- What point `t` writes back is block `t` of the layer of the arrays the region found. -/
theorem flushed (c : Dev nD) (t : Fin cfg9.N) :
    (dat9 V c).flushed 2 t = ((cfg9.win 2).blk t).view.read (Elt Ideal) (Cert.Layers.addRow (V c main_v141 : S100000x128.Idx → EReal) (V c main_v142 : S1x128.Idx → EReal)) := by
  show (cfg9.win 2).cut (grid9.coords t) ((dat9 V c).after 2 t) = _
  rw [after9_2]
  unfold out9_2
  rw [View.canon_unit_zero hz]
  simp only [View.ld_unit_zero (S := S5000x128) hz, View.ld_unit_zero (S := S1x128) hz]
  obtain ⟨e0, e1, e2, e3, e4, e5⟩ := idx t
  funext j
  have hc : ((j : S5000x128.Idx) 1).val = (((cfg9.win 2).blk t).view.emb j (1 : Fin 2)).val := by
    show (j 1).val = win9_2.index t (1 : Fin 2) * 128 + 1 * (j 1).val
    omega
  have h0 : (iblk9 V c 0 t : Vec Ideal S5000x128 .f32) j
      = (V c main_v141 : S100000x128.Idx → EReal) (((cfg9.win 2).blk t).view.emb j) := by
    show V c main_v141 (((cfg9.win 0).blk t).view.emb j) = _
    refine congrArg (V c main_v141) (funext fun a => Fin.ext ?_)
    match a with
    | ⟨0, _⟩ =>
      show win9_0.index t (0 : Fin 2) * 5000 + 1 * (j 0).val = win9_2.index t (0 : Fin 2) * 5000 + 1 * (j 0).val
      omega
    | ⟨1, _⟩ =>
      show win9_0.index t (1 : Fin 2) * 128 + 1 * (j 1).val = win9_2.index t (1 : Fin 2) * 128 + 1 * (j 1).val
      omega
  have h1 : (iblk9 V c 1 t : Vec Ideal S1x128 .f32) = (V c main_v142 : S1x128.Idx → EReal) := by
    funext y
    show V c main_v142 (((cfg9.win 1).blk t).view.emb y) = V c main_v142 y
    refine congrArg (V c main_v142) (funext fun a => Fin.ext ?_)
    match a with
    | ⟨0, _⟩ =>
      show win9_1.index t (0 : Fin 2) * 1 + 1 * (y 0).val = (y 0).val
      omega
    | ⟨1, _⟩ =>
      show win9_1.index t (1 : Fin 2) * 128 + 1 * (y 1).val = (y 1).val
      omega
  exact point (V c main_v141) (V c main_v142) (iblk9 V c 0 t) (iblk9 V c 1 t) j (((cfg9.win 2).blk t).view.emb j) hc h0 h1

/-- An index of the result array is in point `t`'s block iff each coordinate is in the block's range on its axis. -/
theorem mem_blk (t : Fin cfg9.N) (i : S100000x128.Idx) :
    i ∈ ((cfg9.win 2).blk t).view.set ↔ ∀ a : Fin 2, win9_2.index t a * S5000x128.size a ≤ (i a).val
      ∧ (i a).val < win9_2.index t a * S5000x128.size a + S5000x128.size a := by
  show i ∈ ((View.whole main_v143).slice (win9_2.rect t)).set ↔ _
  rw [View.set_slice_whole, Rect.mem_set_unit]
  exact Iff.rfl

/-- Row `r` of the result lies in the block of point `r / 5000`: the blocks tile the array. -/
theorem cover (i : S100000x128.Idx) : ∃ t : Fin cfg9.N, (cfg9.win 2).flush t = true ∧ i ∈ ((cfg9.win 2).blk t).view.set := by
  have hi0 : (i 0).val < 100000 := (i 0).isLt
  have hi1 : (i 1).val < 128 := (i 1).isLt
  have hN : cfg9.N = 20 := N_9
  obtain ⟨t, ht⟩ : ∃ t : Fin cfg9.N, t.val = (i 0).val / 5000 := ⟨⟨(i 0).val / 5000, by rw [hN]; omega⟩, rfl⟩
  obtain ⟨e0, e1, e2, e3, e4, e5⟩ := idx t
  refine ⟨t, flush9_2 t, ?_⟩
  rw [mem_blk]
  intro a
  match a with
  | ⟨0, _⟩ =>
    show win9_2.index t (0 : Fin 2) * 5000 ≤ (i 0).val ∧ (i 0).val < win9_2.index t (0 : Fin 2) * 5000 + 5000
    omega
  | ⟨1, _⟩ =>
    show win9_2.index t (1 : Fin 2) * 128 ≤ (i 1).val ∧ (i 1).val < win9_2.index t (1 : Fin 2) * 128 + 128
    omega

/-- The result array after the region: the layer of the two arrays the region found. -/
theorem arr (c : Dev nD) : (dat9 V c).arrAt 2 cfg9.N = (Cert.Layers.addRow (V c main_v141 : S100000x128.Idx → EReal) (V c main_v142 : S1x128.Idx → EReal)) :=
  (dat9 V c).arrAt_eq_of_cover 2 _ (fun t _ => flushed V c t) cover

end Cert.KernelIdeal.Region9

end
-- ==== Proof.RefStages.lean ====
/-
  The reference's stages as layers.

  The reference computes, array by array: a product, a graph aggregation of it, a bias row added and the rectifier, and so
  on through the network.  Read at an entry, each of its stages between two aggregations is one of the layers of
  `Spec`: its dot_general is the row-by-column product, its bias row broadcast down the rows is `addRow` (for any row
  array `Brow` that holds the bias vector), its maximum with the broadcast zero is `rect`, and its mean / variance /
  rsqrt chain over rows of five entries is `layerNorm` — the host's sums start from the zero word, whose value is 0.
-/
import proofs.«164824_j89300960019182_1_alg».proof.Proof.RefRead
import proofs.«164824_j89300960019182_1_alg».proof.Proof.Spec
import Idealize.ShloMosaic.PureOps.Ideal.Laws
import Idealize.ShloMosaic.Lib.ValueIdx

noncomputable section

namespace Cert.ReferenceIdeal.Stages

open Cert.ReferenceIdeal Cert.ReferenceIdeal.ReadP
open Idealize.ShloMosaic Idealize.ShloMosaic.ValueIdx Cert.Layers

/-- A sum over the contracted coordinate, with the two operands read at (row, k) and (k, column), is the product's
    entry. -/
theorem sum_prod {n K d : ℕ} (y : (⟨2, ![n, K]⟩ : Shape).Idx → EReal) (w : (⟨2, ![K, d]⟩ : Shape).Idx → EReal)
    (i : (⟨2, ![n, d]⟩ : Shape).Idx) (l : Fin K → (⟨2, ![n, K]⟩ : Shape).Idx) (r : Fin K → (⟨2, ![K, d]⟩ : Shape).Idx)
    (hl : ∀ k, l k = ix2 (i 0) k) (hr : ∀ k, r k = ix2 k (i 1)) :
    ∑ k : Fin K, y (l k) * w (r k) = LibDense.prod y w i := by
  unfold LibDense.prod
  exact Finset.sum_congr rfl fun k _ => congrArg₂ (· * ·) (congrArg y (hl k)) (congrArg w (hr k))

variable (x0 : (⟨S100000x128, .f32⟩ : BufTy).Contents (Elt Ideal)) (x1 : (⟨S2x800000, .i32⟩ : BufTy).Contents (Elt Ideal)) (x2 : (⟨S128x128, .f32⟩ : BufTy).Contents (Elt Ideal))
  (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x5, .f32⟩ : BufTy).Contents (Elt Ideal)) (x7 x8 x9 : (⟨S5, .f32⟩ : BufTy).Contents (Elt Ideal))
  (x10 : (⟨S5x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal))

/-! ## The five products -/

theorem prod15 : val_main_v15 (F := Ideal) x0 x2 = LibDense.prod x0 x2 := by
  funext i
  exact (val_main_v15_apply x0 x2 i).trans (sum_prod _ _ i _ _ (fun k => (funext fun a => by match a with | ⟨0, _⟩ => rfl | ⟨1, _⟩ => rfl)) (fun k => (funext fun a => by match a with | ⟨0, _⟩ => rfl | ⟨1, _⟩ => rfl)))

theorem prod48 : val_main_v48 (F := Ideal) x0 x1 x2 x3 x4 = LibDense.prod (val_main_v47 (F := Ideal) x0 x1 x2 x3) x4 := by
  funext i
  exact (val_main_v48_apply x0 x1 x2 x3 x4 i).trans (sum_prod _ _ i _ _ (fun k => (funext fun a => by match a with | ⟨0, _⟩ => rfl | ⟨1, _⟩ => rfl)) (fun k => (funext fun a => by match a with | ⟨0, _⟩ => rfl | ⟨1, _⟩ => rfl)))

theorem prod81 : val_main_v81 (F := Ideal) x0 x1 x2 x3 x4 x5 x6 = LibDense.prod (val_main_v80 (F := Ideal) x0 x1 x2 x3 x4 x5) x6 := by
  funext i
  exact (val_main_v81_apply x0 x1 x2 x3 x4 x5 x6 i).trans (sum_prod _ _ i _ _ (fun k => (funext fun a => by match a with | ⟨0, _⟩ => rfl | ⟨1, _⟩ => rfl)) (fun k => (funext fun a => by match a with | ⟨0, _⟩ => rfl | ⟨1, _⟩ => rfl)))

theorem prod109 : val_main_v109 (F := Ideal) x0 x1 x2 x3 x4 x5 x6 x7 x8 x9 x10 = LibDense.prod (val_main_v108 (F := Ideal) x0 x1 x2 x3 x4 x5 x6 x7 x8 x9) x10 := by
  funext i
  exact (val_main_v109_apply x0 x1 x2 x3 x4 x5 x6 x7 x8 x9 x10 i).trans (sum_prod _ _ i _ _ (fun k => (funext fun a => by match a with | ⟨0, _⟩ => rfl | ⟨1, _⟩ => rfl)) (fun k => (funext fun a => by match a with | ⟨0, _⟩ => rfl | ⟨1, _⟩ => rfl)))

theorem prod142 : val_main_v142 (F := Ideal) x0 x1 x2 x3 x4 x5 x6 x7 x8 x9 x10 x11 x12 = LibDense.prod (val_main_v141 (F := Ideal) x0 x1 x2 x3 x4 x5 x6 x7 x8 x9 x10 x11) x12 := by
  funext i
  exact (val_main_v142_apply x0 x1 x2 x3 x4 x5 x6 x7 x8 x9 x10 x11 x12 i).trans (sum_prod _ _ i _ _ (fun k => (funext fun a => by match a with | ⟨0, _⟩ => rfl | ⟨1, _⟩ => rfl)) (fun k => (funext fun a => by match a with | ⟨0, _⟩ => rfl | ⟨1, _⟩ => rfl)))

/-! ## The bias rows and the rectifiers -/

theorem bias46 (Brow : (⟨2, ![1, 128]⟩ : Shape).Idx → EReal) (hB : ∀ q : Fin 128, Brow (ix2 (0 : Fin 1) q) = x3 (ix1 q)) :
    val_main_v46 (F := Ideal) x0 x1 x2 x3 = addRow (val_main_v43 (F := Ideal) x0 x1 x2) Brow := by
  funext i
  rw [val_main_v46_apply, val_main_v45_apply, val_main_v44_apply]
  refine congrArg (val_main_v43 (F := Ideal) x0 x1 x2 i + ·) ?_
  exact (congrArg x3 (funext fun a => by match a with | ⟨0, _⟩ => rfl)).trans (hB (i 1)).symm

theorem relu47 : val_main_v47 (F := Ideal) x0 x1 x2 x3 = rect (val_main_v46 (F := Ideal) x0 x1 x2 x3) := by
  funext i
  rw [val_main_v47_apply, val_main_call1_v0_apply, val_main_call1_cst_apply]
  rfl

theorem bias79 (Brow : (⟨2, ![1, 64]⟩ : Shape).Idx → EReal) (hB : ∀ q : Fin 64, Brow (ix2 (0 : Fin 1) q) = x5 (ix1 q)) :
    val_main_v79 (F := Ideal) x0 x1 x2 x3 x4 x5 = addRow (val_main_v76 (F := Ideal) x0 x1 x2 x3 x4) Brow := by
  funext i
  rw [val_main_v79_apply, val_main_v78_apply, val_main_v77_apply]
  refine congrArg (val_main_v76 (F := Ideal) x0 x1 x2 x3 x4 i + ·) ?_
  exact (congrArg x5 (funext fun a => by match a with | ⟨0, _⟩ => rfl)).trans (hB (i 1)).symm

theorem relu80 : val_main_v80 (F := Ideal) x0 x1 x2 x3 x4 x5 = rect (val_main_v79 (F := Ideal) x0 x1 x2 x3 x4 x5) := by
  funext i
  rw [val_main_v80_apply, val_main_call2_v0_apply, val_main_call2_cst_apply]
  rfl

theorem bias84 (Brow : (⟨2, ![1, 5]⟩ : Shape).Idx → EReal) (hB : ∀ q : Fin 5, Brow (ix2 (0 : Fin 1) q) = x7 (ix1 q)) :
    val_main_v84 (F := Ideal) x0 x1 x2 x3 x4 x5 x6 x7 = addRow (val_main_v81 (F := Ideal) x0 x1 x2 x3 x4 x5 x6) Brow := by
  funext i
  rw [val_main_v84_apply, val_main_v83_apply, val_main_v82_apply]
  refine congrArg (val_main_v81 (F := Ideal) x0 x1 x2 x3 x4 x5 x6 i + ·) ?_
  exact (congrArg x7 (funext fun a => by match a with | ⟨0, _⟩ => rfl)).trans (hB (i 1)).symm

theorem bias140 (Brow : (⟨2, ![1, 128]⟩ : Shape).Idx → EReal) (hB : ∀ q : Fin 128, Brow (ix2 (0 : Fin 1) q) = x11 (ix1 q)) :
    val_main_v140 (F := Ideal) x0 x1 x2 x3 x4 x5 x6 x7 x8 x9 x10 x11 = addRow (val_main_v137 (F := Ideal) x0 x1 x2 x3 x4 x5 x6 x7 x8 x9 x10) Brow := by
  funext i
  rw [val_main_v140_apply, val_main_v139_apply, val_main_v138_apply]
  refine congrArg (val_main_v137 (F := Ideal) x0 x1 x2 x3 x4 x5 x6 x7 x8 x9 x10 i + ·) ?_
  exact (congrArg x11 (funext fun a => by match a with | ⟨0, _⟩ => rfl)).trans (hB (i 1)).symm

theorem relu141 : val_main_v141 (F := Ideal) x0 x1 x2 x3 x4 x5 x6 x7 x8 x9 x10 x11 = rect (val_main_v140 (F := Ideal) x0 x1 x2 x3 x4 x5 x6 x7 x8 x9 x10 x11) := by
  funext i
  rw [val_main_v141_apply, val_main_call3_v0_apply, val_main_call3_cst_apply]
  rfl

theorem bias173 (Brow : (⟨2, ![1, 128]⟩ : Shape).Idx → EReal) (hB : ∀ q : Fin 128, Brow (ix2 (0 : Fin 1) q) = x13 (ix1 q)) :
    val_main_v173 (F := Ideal) x0 x1 x2 x3 x4 x5 x6 x7 x8 x9 x10 x11 x12 x13 = addRow (val_main_v170 (F := Ideal) x0 x1 x2 x3 x4 x5 x6 x7 x8 x9 x10 x11 x12) Brow := by
  funext i
  rw [val_main_v173_apply, val_main_v172_apply, val_main_v171_apply]
  refine congrArg (val_main_v170 (F := Ideal) x0 x1 x2 x3 x4 x5 x6 x7 x8 x9 x10 x11 x12 i + ·) ?_
  exact (congrArg x13 (funext fun a => by match a with | ⟨0, _⟩ => rfl)).trans (hB (i 1)).symm

/-! ## The normalisation -/

/-- The column of row means of the biased array. -/
theorem mean88 (p : Fin 100000) (u : Fin 1) :
    val_main_v88 (F := Ideal) x0 x1 x2 x3 x4 x5 x6 x7 (ix2 p u) = rowMean (fun k : Fin 5 => val_main_v84 (F := Ideal) x0 x1 x2 x3 x4 x5 x6 x7 (ix2 p k)) := by
  rw [val_main_v88_apply, val_main_v86_apply, val_main_v85_apply, val_main_v87_apply, val_main_cst_17_apply, val_main_cst_16_apply]
  show Ideal.div (Ideal.ofBits .f32 0x00000000#32 + _) fiveW = _
  rw [Ideal.ofBits_zero_f32, zero_add]
  refine congrArg (fun s => Ideal.div s fiveW) (Finset.sum_congr rfl fun k _ => ?_)
  exact congrArg (val_main_v84 (F := Ideal) x0 x1 x2 x3 x4 x5 x6 x7) (funext fun a => by match a with | ⟨0, _⟩ => rfl | ⟨1, _⟩ => rfl)

/-- Every entry less its row's mean. -/
theorem cent90 (p : Fin 100000) (q : Fin 5) :
    val_main_v90 (F := Ideal) x0 x1 x2 x3 x4 x5 x6 x7 (ix2 p q) = val_main_v84 (F := Ideal) x0 x1 x2 x3 x4 x5 x6 x7 (ix2 p q) - rowMean (fun k : Fin 5 => val_main_v84 (F := Ideal) x0 x1 x2 x3 x4 x5 x6 x7 (ix2 p k)) := by
  have e : idx_main_v89 (ix2 p q) = ix2 p (0 : Fin 1) := (funext fun a => by match a with | ⟨0, _⟩ => rfl | ⟨1, _⟩ => rfl)
  rw [val_main_v90_apply, val_main_v89_apply, e, mean88]
  rfl

/-- The same difference as the reference computes it a second time. -/
theorem cent97 (p : Fin 100000) (q : Fin 5) :
    val_main_v97 (F := Ideal) x0 x1 x2 x3 x4 x5 x6 x7 (ix2 p q) = val_main_v84 (F := Ideal) x0 x1 x2 x3 x4 x5 x6 x7 (ix2 p q) - rowMean (fun k : Fin 5 => val_main_v84 (F := Ideal) x0 x1 x2 x3 x4 x5 x6 x7 (ix2 p k)) := by
  have e : idx_main_v96 (ix2 p q) = ix2 p (0 : Fin 1) := (funext fun a => by match a with | ⟨0, _⟩ => rfl | ⟨1, _⟩ => rfl)
  rw [val_main_v97_apply, val_main_v96_apply, e, mean88]
  rfl

/-- The column of row variances. -/
theorem var95 (p : Fin 100000) (u : Fin 1) :
    val_main_v95 (F := Ideal) x0 x1 x2 x3 x4 x5 x6 x7 (ix2 p u) = rowVar (fun k : Fin 5 => val_main_v84 (F := Ideal) x0 x1 x2 x3 x4 x5 x6 x7 (ix2 p k)) := by
  rw [val_main_v95_apply, val_main_v93_apply, val_main_v92_apply, val_main_v94_apply, val_main_cst_19_apply, val_main_cst_18_apply]
  show Ideal.div (Ideal.ofBits .f32 0x00000000#32 + _) fiveW = _
  rw [Ideal.ofBits_zero_f32, zero_add]
  refine congrArg (fun s => Ideal.div s fiveW) (Finset.sum_congr rfl fun k _ => ?_)
  have e : idx_main_v92 (idx_main_v93 (ix2 p u)) k = ix2 p k := (funext fun a => by match a with | ⟨0, _⟩ => rfl | ⟨1, _⟩ => rfl)
  refine (congrArg (val_main_v91 (F := Ideal) x0 x1 x2 x3 x4 x5 x6 x7) e).trans ?_
  rw [val_main_v91_apply, cent90]
  rfl

/-- The reference's normalised stage is the normalisation layer of its biased product. -/
theorem ln108 (B7 G8 B9 : (⟨2, ![1, 5]⟩ : Shape).Idx → EReal)
    (h7 : ∀ q : Fin 5, B7 (ix2 (0 : Fin 1) q) = x7 (ix1 q)) (h8 : ∀ q : Fin 5, G8 (ix2 (0 : Fin 1) q) = x8 (ix1 q))
    (h9 : ∀ q : Fin 5, B9 (ix2 (0 : Fin 1) q) = x9 (ix1 q)) :
    val_main_v108 (F := Ideal) x0 x1 x2 x3 x4 x5 x6 x7 x8 x9 = layerNorm (addRow (val_main_v81 (F := Ideal) x0 x1 x2 x3 x4 x5 x6) B7) G8 B9 := by
  funext i
  obtain ⟨p, q, rfl⟩ : ∃ (p : Fin 100000) (q : Fin 5), i = ix2 p q := ⟨i 0, i 1, eq_ix2 i⟩
  rw [← bias84 x0 x1 x2 x3 x4 x5 x6 x7 B7 h7]
  have e101 : idx_main_v101 (ix2 p q) = ix2 p (0 : Fin 1) := (funext fun a => by match a with | ⟨0, _⟩ => rfl | ⟨1, _⟩ => rfl)
  have e8 : idx_main_v103 (idx_main_v104 (ix2 p q)) = ix1 q := (funext fun a => by match a with | ⟨0, _⟩ => rfl)
  have e9 : idx_main_v106 (idx_main_v107 (ix2 p q)) = ix1 q := (funext fun a => by match a with | ⟨0, _⟩ => rfl)
  rw [val_main_v108_apply, val_main_v105_apply, val_main_v102_apply, cent97, val_main_v101_apply, e101, val_main_v100_apply,
    val_main_v99_apply, var95, val_main_v98_apply, val_main_cst_20_apply, val_main_v104_apply, val_main_v103_apply, e8,
    val_main_v107_apply, val_main_v106_apply, e9, ← h8 q, ← h9 q]
  rfl

end Cert.ReferenceIdeal.Stages

end
-- ==== Proof.Chain.lean ====
/-
  The idealized kernel's result, stage by stage, is the reference's.

  The program's seventeen segments are walked in order.  A buffer that no operation of a host stretch writes, and that
  is not an array of a region, keeps its contents across that segment; so the edge lists, the degree normalisation and
  the argument arrays are carried unchanged from where they are made to every place that reads them.  Each region
  leaves its layer of the arrays it found (the ten region modules); each host stretch between two regions applies the
  same operations as the reference does between the same two stages (the graph aggregation: two gathers of the
  normalisation, a gather of the rows, a scatter-add), so its result is the reference's stage by unfolding both.  The
  reference's own stages between aggregations are the same layers (`RefStages`).  Chained, the last boundary's contents
  of the result buffer are the reference's result term of the launch arguments.
-/
import proofs.«164824_j89300960019182_1_alg».proof.Proof.Gen.KernelIdeal.Frame
import proofs.«164824_j89300960019182_1_alg».proof.Proof.Carry
import proofs.«164824_j89300960019182_1_alg».proof.Proof.Region0
import proofs.«164824_j89300960019182_1_alg».proof.Proof.Region1
import proofs.«164824_j89300960019182_1_alg».proof.Proof.Region2
import proofs.«164824_j89300960019182_1_alg».proof.Proof.Region3
import proofs.«164824_j89300960019182_1_alg».proof.Proof.Region4
import proofs.«164824_j89300960019182_1_alg».proof.Proof.Region5
import proofs.«164824_j89300960019182_1_alg».proof.Proof.Region6
import proofs.«164824_j89300960019182_1_alg».proof.Proof.Region7
import proofs.«164824_j89300960019182_1_alg».proof.Proof.Region8
import proofs.«164824_j89300960019182_1_alg».proof.Proof.Region9
import proofs.«164824_j89300960019182_1_alg».proof.Proof.RefStages
import Idealize.ShloMosaic.Lib.StableHlo.Run
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem
open Cert.Layers Cert.ReferenceIdeal.ReadP

variable (m : (ℓ : Loc nD τ sig) → Buf (Elt Ideal) ℓ) (ρ : Dev nD → PrngReg) (c : Dev nD)

/-! ## The launch arguments, and what the first stretch makes of the edge lists -/

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)

/-- The source list with the self loops, the destination list with the self loops, and the degree normalisation: the
    first stretch applies to the edge array the operations the reference applies. -/
theorem src2 : W2 m ρ c (Proc.devRef .tc main_v3) = val_main_v3 (F := Ideal) (a1 m c) := by
  show StableHlo.after hostOps0_1 (StableHlo.after hostOps0 (W0 m ρ c)) _ = _
  after_results
  rfl
theorem dst2 : W2 m ρ c (Proc.devRef .tc main_v6) = val_main_v6 (F := Ideal) (a1 m c) := by
  show StableHlo.after hostOps0_1 (StableHlo.after hostOps0 (W0 m ρ c)) _ = _
  after_results
  rfl
/-- Before the selection: which nodes have a positive degree, the reciprocal square root of the degree, and the zero
    the selection falls back to. -/
theorem pos1 : W1 m ρ c (Proc.devRef .tc main_v12) = val_main_v12 (F := Ideal) (a1 m c) := by
  show StableHlo.after hostOps0 (W0 m ρ c) _ = _
  after_results
  rfl
theorem rs1 : W1 m ρ c (Proc.devRef .tc main_v13) = val_main_v13 (F := Ideal) (a1 m c) := by
  show StableHlo.after hostOps0 (W0 m ρ c) _ = _
  after_results
  rfl
theorem zero1 : W1 m ρ c (Proc.devRef .tc main_cst_2) = val_main_cst_2 (F := Ideal) := by
  show StableHlo.after hostOps0 (W0 m ρ c) _ = _
  after_results
  rfl
/-- The selection, from any contents: the three operations of the outlined `where`. -/
theorem sel_eq (V1 : Valuation τ sig (Elt Ideal)) : StableHlo.after hostOps0_1 V1 (Proc.devRef .tc main_v14)
    = select (V1 (Proc.devRef .tc main_v12)) (V1 (Proc.devRef .tc main_v13))
        (broadcastInDim S100000 ![] bcast_S_S100000 (V1 (Proc.devRef .tc main_cst_2))) := by
  after_results
  rfl
theorem dinv2 : W2 m ρ c (Proc.devRef .tc main_v14) = val_main_v14 (F := Ideal) (a1 m c) := by
  show StableHlo.after hostOps0_1 (W1 m ρ c) _ = _
  rw [sel_eq, pos1 m ρ c, rs1 m ρ c, zero1 m ρ c]
  rfl

/-! ## The edge lists, the normalisation and the arguments at the boundaries that read them -/

theorem src3 : W3 m ρ c (Proc.devRef .tc main_v3) = val_main_v3 (F := Ideal) (a1 m c) :=
  (mid3 m ρ c main_v3 (by decide)).trans (src2 m ρ c)
theorem src6 : W6 m ρ c (Proc.devRef .tc main_v3) = val_main_v3 (F := Ideal) (a1 m c) :=
  (mid6 m ρ c main_v3 (by decide) (nw_k1_v3) (by decide) (by decide)).trans (src2 m ρ c)
theorem src12 : W12 m ρ c (Proc.devRef .tc main_v3) = val_main_v3 (F := Ideal) (a1 m c) :=
  (mid12 m ρ c main_v3 (by decide) (nw_k1_v3) (by decide) (by decide) (nw_k3_v3) (by decide) (by decide) (nw_k5_v3) (by decide) (by decide)).trans (src2 m ρ c)
theorem src15 : W15 m ρ c (Proc.devRef .tc main_v3) = val_main_v3 (F := Ideal) (a1 m c) :=
  (mid15 m ρ c main_v3 (by decide) (nw_k1_v3) (by decide) (by decide) (nw_k3_v3) (by decide) (by decide) (nw_k5_v3) (by decide) (by decide) (nw_k7_v3) (by decide) (by decide)).trans (src2 m ρ c)
theorem dst3 : W3 m ρ c (Proc.devRef .tc main_v6) = val_main_v6 (F := Ideal) (a1 m c) :=
  (mid3 m ρ c main_v6 (by decide)).trans (dst2 m ρ c)
theorem dst6 : W6 m ρ c (Proc.devRef .tc main_v6) = val_main_v6 (F := Ideal) (a1 m c) :=
  (mid6 m ρ c main_v6 (by decide) (nw_k1_v6) (by decide) (by decide)).trans (dst2 m ρ c)
theorem dst12 : W12 m ρ c (Proc.devRef .tc main_v6) = val_main_v6 (F := Ideal) (a1 m c) :=
  (mid12 m ρ c main_v6 (by decide) (nw_k1_v6) (by decide) (by decide) (nw_k3_v6) (by decide) (by decide) (nw_k5_v6) (by decide) (by decide)).trans (dst2 m ρ c)
theorem dst15 : W15 m ρ c (Proc.devRef .tc main_v6) = val_main_v6 (F := Ideal) (a1 m c) :=
  (mid15 m ρ c main_v6 (by decide) (nw_k1_v6) (by decide) (by decide) (nw_k3_v6) (by decide) (by decide) (nw_k5_v6) (by decide) (by decide) (nw_k7_v6) (by decide) (by decide)).trans (dst2 m ρ c)
theorem dinv3 : W3 m ρ c (Proc.devRef .tc main_v14) = val_main_v14 (F := Ideal) (a1 m c) :=
  (mid3 m ρ c main_v14 (by decide)).trans (dinv2 m ρ c)
theorem dinv6 : W6 m ρ c (Proc.devRef .tc main_v14) = val_main_v14 (F := Ideal) (a1 m c) :=
  (mid6 m ρ c main_v14 (by decide) (nw_k1_v14) (by decide) (by decide)).trans (dinv2 m ρ c)
theorem dinv12 : W12 m ρ c (Proc.devRef .tc main_v14) = val_main_v14 (F := Ideal) (a1 m c) :=
  (mid12 m ρ c main_v14 (by decide) (nw_k1_v14) (by decide) (by decide) (nw_k3_v14) (by decide) (by decide) (nw_k5_v14) (by decide) (by decide)).trans (dinv2 m ρ c)
theorem dinv15 : W15 m ρ c (Proc.devRef .tc main_v14) = val_main_v14 (F := Ideal) (a1 m c) :=
  (mid15 m ρ c main_v14 (by decide) (nw_k1_v14) (by decide) (by decide) (nw_k3_v14) (by decide) (by decide) (nw_k5_v14) (by decide) (by decide) (nw_k7_v14) (by decide) (by decide)).trans (dinv2 m ρ c)
theorem at2_arg0 : W2 m ρ c (Proc.devRef .tc main_arg0) = a0 m c :=
  base2 m ρ c main_arg0 (nw_k0_arg0) (nw_k01_arg0)
theorem at2_arg2 : W2 m ρ c (Proc.devRef .tc main_arg2) = a2 m c :=
  base2 m ρ c main_arg2 (nw_k0_arg2) (nw_k01_arg2)
theorem at3_arg3 : W3 m ρ c (Proc.devRef .tc main_arg3) = a3 m c :=
  (mid3 m ρ c main_arg3 (by decide)).trans (base2 m ρ c main_arg3 (nw_k0_arg3) (nw_k01_arg3))
theorem at5_arg4 : W5 m ρ c (Proc.devRef .tc main_arg4) = a4 m c :=
  (mid5 m ρ c main_arg4 (by decide) (nw_k1_arg4) (by decide)).trans (base2 m ρ c main_arg4 (nw_k0_arg4) (nw_k01_arg4))
theorem at6_arg5 : W6 m ρ c (Proc.devRef .tc main_arg5) = a5 m c :=
  (mid6 m ρ c main_arg5 (by decide) (nw_k1_arg5) (by decide) (by decide)).trans (base2 m ρ c main_arg5 (nw_k0_arg5) (nw_k01_arg5))
theorem at8_arg6 : W8 m ρ c (Proc.devRef .tc main_arg6) = a6 m c :=
  (mid8 m ρ c main_arg6 (by decide) (nw_k1_arg6) (by decide) (by decide) (nw_k3_arg6) (by decide)).trans (base2 m ρ c main_arg6 (nw_k0_arg6) (nw_k01_arg6))
theorem at9_arg7 : W9 m ρ c (Proc.devRef .tc main_arg7) = a7 m c :=
  (mid9 m ρ c main_arg7 (by decide) (nw_k1_arg7) (by decide) (by decide) (nw_k3_arg7) (by decide) (by decide)).trans (base2 m ρ c main_arg7 (nw_k0_arg7) (nw_k01_arg7))
theorem at9_arg8 : W9 m ρ c (Proc.devRef .tc main_arg8) = a8 m c :=
  (mid9 m ρ c main_arg8 (by decide) (nw_k1_arg8) (by decide) (by decide) (nw_k3_arg8) (by decide) (by decide)).trans (base2 m ρ c main_arg8 (nw_k0_arg8) (nw_k01_arg8))
theorem at9_arg9 : W9 m ρ c (Proc.devRef .tc main_arg9) = a9 m c :=
  (mid9 m ρ c main_arg9 (by decide) (nw_k1_arg9) (by decide) (by decide) (nw_k3_arg9) (by decide) (by decide)).trans (base2 m ρ c main_arg9 (nw_k0_arg9) (nw_k01_arg9))
theorem at11_arg10 : W11 m ρ c (Proc.devRef .tc main_arg10) = a10 m c :=
  (mid11 m ρ c main_arg10 (by decide) (nw_k1_arg10) (by decide) (by decide) (nw_k3_arg10) (by decide) (by decide) (nw_k5_arg10) (by decide)).trans (base2 m ρ c main_arg10 (nw_k0_arg10) (nw_k01_arg10))
theorem at12_arg11 : W12 m ρ c (Proc.devRef .tc main_arg11) = a11 m c :=
  (mid12 m ρ c main_arg11 (by decide) (nw_k1_arg11) (by decide) (by decide) (nw_k3_arg11) (by decide) (by decide) (nw_k5_arg11) (by decide) (by decide)).trans (base2 m ρ c main_arg11 (nw_k0_arg11) (nw_k01_arg11))
theorem at14_arg12 : W14 m ρ c (Proc.devRef .tc main_arg12) = a12 m c :=
  (mid14 m ρ c main_arg12 (by decide) (nw_k1_arg12) (by decide) (by decide) (nw_k3_arg12) (by decide) (by decide) (nw_k5_arg12) (by decide) (by decide) (nw_k7_arg12) (by decide)).trans (base2 m ρ c main_arg12 (nw_k0_arg12) (nw_k01_arg12))
theorem at15_arg13 : W15 m ρ c (Proc.devRef .tc main_arg13) = a13 m c :=
  (mid15 m ρ c main_arg13 (by decide) (nw_k1_arg13) (by decide) (by decide) (nw_k3_arg13) (by decide) (by decide) (nw_k5_arg13) (by decide) (by decide) (nw_k7_arg13) (by decide) (by decide)).trans (base2 m ρ c main_arg13 (nw_k0_arg13) (nw_k01_arg13))

/-! ## The stages -/

/-- Region 0: the first product. -/
theorem r0 : W3 m ρ c (Proc.devRef .tc main_v15) = val_main_v15 (F := Ideal) (a0 m c) (a2 m c) := by
  refine (W3_arr m ρ c 2).trans ((Region0.arr (V2 m ρ) c).trans ?_)
  rw [show V2 m ρ c main_arg0 = a0 m c from at2_arg0 m ρ c, show V2 m ρ c main_arg2 = a2 m c from at2_arg2 m ρ c]
  exact (Cert.ReferenceIdeal.Stages.prod15 _ _).symm

/-- The first aggregation. -/
theorem agg43 : W4 m ρ c (Proc.devRef .tc main_v43) = val_main_v43 (F := Ideal) (a0 m c) (a1 m c) (a2 m c) := by
  show StableHlo.after hostOps1 (W3 m ρ c) _ = _
  after_results_simp
  rw [r0 m ρ c, src3 m ρ c, dst3 m ρ c, dinv3 m ρ c]
  rfl

theorem row44 (q : Fin 128) :
    (W4 m ρ c (Proc.devRef .tc main_v44) : S1x128.Idx → EReal) (ix2 (0 : Fin 1) q) = a3 m c (ix1 q) := by
  have e : W4 m ρ c (Proc.devRef .tc main_v44)
      = shapeCast S1x128 (W3 m ρ c (Proc.devRef .tc main_arg3) : S128.Idx → EReal) shapeCasts_S128_S1x128 := by
    show StableHlo.after hostOps1 (W3 m ρ c) _ = _
    after_results_simp
    rfl
  rw [e, at3_arg3 m ρ c]
  exact shapeCast_a_1a_apply _ _ (0 : Fin 1) q

/-- Region 1: the bias row and the rectifier. -/
theorem r1 : W5 m ρ c (Proc.devRef .tc main_v45) = val_main_v47 (F := Ideal) (a0 m c) (a1 m c) (a2 m c) (a3 m c) := by
  refine (W5_arr m ρ c 2).trans ((Region1.arr (V4 m ρ) c).trans ?_)
  rw [show V4 m ρ c main_v43 = _ from agg43 m ρ c, Cert.ReferenceIdeal.Stages.relu47,
    Cert.ReferenceIdeal.Stages.bias46 _ _ _ _ (V4 m ρ c main_v44) (row44 m ρ c)]

/-- Region 2: the second product. -/
theorem r2 : W6 m ρ c (Proc.devRef .tc main_v46) = val_main_v48 (F := Ideal) (a0 m c) (a1 m c) (a2 m c) (a3 m c) (a4 m c) := by
  refine (W6_arr m ρ c 2).trans ((Region2.arr (V5 m ρ) c).trans ?_)
  rw [show V5 m ρ c main_v45 = _ from r1 m ρ c, show V5 m ρ c main_arg4 = a4 m c from at5_arg4 m ρ c]
  exact (Cert.ReferenceIdeal.Stages.prod48 _ _ _ _ _).symm

/-- The second aggregation. -/
theorem agg76 : W7 m ρ c (Proc.devRef .tc main_v74) = val_main_v76 (F := Ideal) (a0 m c) (a1 m c) (a2 m c) (a3 m c) (a4 m c) := by
  show StableHlo.after hostOps3 (W6 m ρ c) _ = _
  after_results_simp
  rw [r2 m ρ c, src6 m ρ c, dst6 m ρ c, dinv6 m ρ c]
  rfl

theorem row75 (q : Fin 64) :
    (W7 m ρ c (Proc.devRef .tc main_v75) : S1x64.Idx → EReal) (ix2 (0 : Fin 1) q) = a5 m c (ix1 q) := by
  have e : W7 m ρ c (Proc.devRef .tc main_v75)
      = shapeCast S1x64 (W6 m ρ c (Proc.devRef .tc main_arg5) : S64.Idx → EReal) shapeCasts_S64_S1x64 := by
    show StableHlo.after hostOps3 (W6 m ρ c) _ = _
    after_results_simp
    rfl
  rw [e, at6_arg5 m ρ c]
  exact shapeCast_a_1a_apply _ _ (0 : Fin 1) q

/-- Region 3: the bias row. -/
theorem r3 : W8 m ρ c (Proc.devRef .tc main_v76) = val_main_v79 (F := Ideal) (a0 m c) (a1 m c) (a2 m c) (a3 m c) (a4 m c) (a5 m c) := by
  refine (W8_arr m ρ c 2).trans ((Region3.arr (V7 m ρ) c).trans ?_)
  rw [show V7 m ρ c main_v74 = _ from agg76 m ρ c,
    Cert.ReferenceIdeal.Stages.bias79 _ _ _ _ _ _ (V7 m ρ c main_v75) (row75 m ρ c)]

/-- Region 4: the rectifier and the third product. -/
theorem r4 : W9 m ρ c (Proc.devRef .tc main_v77) = val_main_v81 (F := Ideal) (a0 m c) (a1 m c) (a2 m c) (a3 m c) (a4 m c) (a5 m c) (a6 m c) := by
  refine (W9_arr m ρ c 2).trans ((Region4.arr (V8 m ρ) c).trans ?_)
  rw [show V8 m ρ c main_v76 = _ from r3 m ρ c, show V8 m ρ c main_arg6 = a6 m c from at8_arg6 m ρ c,
    Cert.ReferenceIdeal.Stages.prod81, Cert.ReferenceIdeal.Stages.relu80]

/-- The third stretch only re-lays the three small vectors as rows; the product array is carried through it. -/
theorem keep77 : W10 m ρ c (Proc.devRef .tc main_v77) = W9 m ρ c (Proc.devRef .tc main_v77) :=
  StableHlo.after_of_forall_not_mem _ _ nw_k5_v77
theorem row78 (q : Fin 5) :
    (W10 m ρ c (Proc.devRef .tc main_v78) : S1x5.Idx → EReal) (ix2 (0 : Fin 1) q) = a7 m c (ix1 q) := by
  have e : W10 m ρ c (Proc.devRef .tc main_v78)
      = shapeCast S1x5 (W9 m ρ c (Proc.devRef .tc main_arg7) : S5.Idx → EReal) shapeCasts_S5_S1x5 := by
    show StableHlo.after hostOps5 (W9 m ρ c) _ = _
    after_results_simp
    rfl
  rw [e, at9_arg7 m ρ c]
  exact shapeCast_a_1a_apply _ _ (0 : Fin 1) q

theorem row79 (q : Fin 5) :
    (W10 m ρ c (Proc.devRef .tc main_v79) : S1x5.Idx → EReal) (ix2 (0 : Fin 1) q) = a8 m c (ix1 q) := by
  have e : W10 m ρ c (Proc.devRef .tc main_v79)
      = shapeCast S1x5 (W9 m ρ c (Proc.devRef .tc main_arg8) : S5.Idx → EReal) shapeCasts_S5_S1x5 := by
    show StableHlo.after hostOps5 (W9 m ρ c) _ = _
    after_results_simp
    rfl
  rw [e, at9_arg8 m ρ c]
  exact shapeCast_a_1a_apply _ _ (0 : Fin 1) q

theorem row80 (q : Fin 5) :
    (W10 m ρ c (Proc.devRef .tc main_v80) : S1x5.Idx → EReal) (ix2 (0 : Fin 1) q) = a9 m c (ix1 q) := by
  have e : W10 m ρ c (Proc.devRef .tc main_v80)
      = shapeCast S1x5 (W9 m ρ c (Proc.devRef .tc main_arg9) : S5.Idx → EReal) shapeCasts_S5_S1x5 := by
    show StableHlo.after hostOps5 (W9 m ρ c) _ = _
    after_results_simp
    rfl
  rw [e, at9_arg9 m ρ c]
  exact shapeCast_a_1a_apply _ _ (0 : Fin 1) q

/-- Region 5: the bias row and the normalisation. -/
theorem r5 : W11 m ρ c (Proc.devRef .tc main_v81) = val_main_v108 (F := Ideal) (a0 m c) (a1 m c) (a2 m c) (a3 m c) (a4 m c) (a5 m c) (a6 m c) (a7 m c) (a8 m c) (a9 m c) := by
  refine (W11_arr m ρ c 4).trans ((Region5.arr (V10 m ρ) c).trans ?_)
  rw [show V10 m ρ c main_v77 = _ from (keep77 m ρ c).trans (r4 m ρ c)]
  exact (Cert.ReferenceIdeal.Stages.ln108 _ _ _ _ _ _ _ _ _ _ (V10 m ρ c main_v78) (V10 m ρ c main_v79) (V10 m ρ c main_v80)
    (row78 m ρ c) (row79 m ρ c) (row80 m ρ c)).symm

/-- Region 6: the fourth product. -/
theorem r6 : W12 m ρ c (Proc.devRef .tc main_v82) = val_main_v109 (F := Ideal) (a0 m c) (a1 m c) (a2 m c) (a3 m c) (a4 m c) (a5 m c) (a6 m c) (a7 m c) (a8 m c) (a9 m c) (a10 m c) := by
  refine (W12_arr m ρ c 2).trans ((Region6.arr (V11 m ρ) c).trans ?_)
  rw [show V11 m ρ c main_v81 = _ from r5 m ρ c, show V11 m ρ c main_arg10 = a10 m c from at11_arg10 m ρ c]
  exact (Cert.ReferenceIdeal.Stages.prod109 _ _ _ _ _ _ _ _ _ _ _).symm

/-- The third aggregation. -/
theorem agg137 : W13 m ρ c (Proc.devRef .tc main_v110) = val_main_v137 (F := Ideal) (a0 m c) (a1 m c) (a2 m c) (a3 m c) (a4 m c) (a5 m c) (a6 m c) (a7 m c) (a8 m c) (a9 m c) (a10 m c) := by
  show StableHlo.after hostOps7 (W12 m ρ c) _ = _
  after_results_simp
  rw [r6 m ρ c, src12 m ρ c, dst12 m ρ c, dinv12 m ρ c]
  rfl

theorem row111 (q : Fin 128) :
    (W13 m ρ c (Proc.devRef .tc main_v111) : S1x128.Idx → EReal) (ix2 (0 : Fin 1) q) = a11 m c (ix1 q) := by
  have e : W13 m ρ c (Proc.devRef .tc main_v111)
      = shapeCast S1x128 (W12 m ρ c (Proc.devRef .tc main_arg11) : S128.Idx → EReal) shapeCasts_S128_S1x128 := by
    show StableHlo.after hostOps7 (W12 m ρ c) _ = _
    after_results_simp
    rfl
  rw [e, at12_arg11 m ρ c]
  exact shapeCast_a_1a_apply _ _ (0 : Fin 1) q

/-- Region 7: the bias row and the rectifier. -/
theorem r7 : W14 m ρ c (Proc.devRef .tc main_v112) = val_main_v141 (F := Ideal) (a0 m c) (a1 m c) (a2 m c) (a3 m c) (a4 m c) (a5 m c) (a6 m c) (a7 m c) (a8 m c) (a9 m c) (a10 m c) (a11 m c) := by
  refine (W14_arr m ρ c 2).trans ((Region7.arr (V13 m ρ) c).trans ?_)
  rw [show V13 m ρ c main_v110 = _ from agg137 m ρ c, Cert.ReferenceIdeal.Stages.relu141,
    Cert.ReferenceIdeal.Stages.bias140 _ _ _ _ _ _ _ _ _ _ _ _ (V13 m ρ c main_v111) (row111 m ρ c)]

/-- Region 8: the fifth product. -/
theorem r8 : W15 m ρ c (Proc.devRef .tc main_v113) = val_main_v142 (F := Ideal) (a0 m c) (a1 m c) (a2 m c) (a3 m c) (a4 m c) (a5 m c) (a6 m c) (a7 m c) (a8 m c) (a9 m c) (a10 m c) (a11 m c) (a12 m c) := by
  refine (W15_arr m ρ c 2).trans ((Region8.arr (V14 m ρ) c).trans ?_)
  rw [show V14 m ρ c main_v112 = _ from r7 m ρ c, show V14 m ρ c main_arg12 = a12 m c from at14_arg12 m ρ c]
  exact (Cert.ReferenceIdeal.Stages.prod142 _ _ _ _ _ _ _ _ _ _ _ _ _).symm

/-- The fourth aggregation. -/
theorem agg170 : W16 m ρ c (Proc.devRef .tc main_v141) = val_main_v170 (F := Ideal) (a0 m c) (a1 m c) (a2 m c) (a3 m c) (a4 m c) (a5 m c) (a6 m c) (a7 m c) (a8 m c) (a9 m c) (a10 m c) (a11 m c) (a12 m c) := by
  show StableHlo.after hostOps9 (W15 m ρ c) _ = _
  after_results_simp
  rw [r8 m ρ c, src15 m ρ c, dst15 m ρ c, dinv15 m ρ c]
  rfl

theorem row142 (q : Fin 128) :
    (W16 m ρ c (Proc.devRef .tc main_v142) : S1x128.Idx → EReal) (ix2 (0 : Fin 1) q) = a13 m c (ix1 q) := by
  have e : W16 m ρ c (Proc.devRef .tc main_v142)
      = shapeCast S1x128 (W15 m ρ c (Proc.devRef .tc main_arg13) : S128.Idx → EReal) shapeCasts_S128_S1x128 := by
    show StableHlo.after hostOps9 (W15 m ρ c) _ = _
    after_results_simp
    rfl
  rw [e, at15_arg13 m ρ c]
  exact shapeCast_a_1a_apply _ _ (0 : Fin 1) q

/-- Region 9: the last bias row.  The result array ends at the reference's result term of the launch arguments. -/
theorem result : W17 m ρ c (Proc.devRef .tc main_v143) = val_main_v173 (F := Ideal) (a0 m c) (a1 m c) (a2 m c) (a3 m c) (a4 m c) (a5 m c) (a6 m c) (a7 m c) (a8 m c) (a9 m c) (a10 m c) (a11 m c) (a12 m c) (a13 m c) := by
  refine (W17_arr m ρ c 2).trans ((Region9.arr (V16 m ρ) c).trans ?_)
  rw [show V16 m ρ c main_v141 = _ from agg170 m ρ c,
    Cert.ReferenceIdeal.Stages.bias173 _ _ _ _ _ _ _ _ _ _ _ _ _ _ (V16 m ρ c main_v142) (row142 m ρ c)]

end Cert.KernelIdeal.Chain

end
-- ==== Proof.lean ====
/-
  The certificate of the graph auto-encoder: two graph convolutions, a rectifier, a product and a row normalisation in
  the bottleneck, two more graph convolutions — the kernel's program as ten grid regions among host stretches, the
  reference as host operations alone.

  On the extended reals both programs compute the same arrays stage by stage, with no law between different
  arrangements needed: a region's blocks of 5000 rows tile its result, each block's entry is the layer's entry of the
  whole arrays (a product's entry is the sum over the contracted coordinate whatever the tiling, and the rounding of
  a product's operands to a narrower format is the identity); the graph aggregation between two regions is the very
  chain of gathers and the scatter-add the reference applies; and the reference's dot_general, broadcast bias, maximum
  with zero and mean / variance / reciprocal-square-root chain are the same layers read at an entry.  So the
  precondition (finite inputs) is never opened.

  The three frames: the two kernels' are the chain of the seventeen segments from the launch memory, the reference's is
  its run with the result dropped.  The idealization rewrote nothing, so there is nothing to preserve.  The value claim
  reads the kernel's result off the last boundary of the chain (`Whole.run_named`), walks the chain back to the launch
  arguments (`Chain.result`), and meets the reference's run at its result term.
-/
import proofs.«164824_j89300960019182_1_alg».proof.Defs
import proofs.«164824_j89300960019182_1_alg».proof.Proof.Gen.Kernel
import proofs.«164824_j89300960019182_1_alg».proof.Proof.Gen.Kernel.Skeleton
import proofs.«164824_j89300960019182_1_alg».proof.Proof.Gen.Kernel.Launch
import proofs.«164824_j89300960019182_1_alg».proof.Proof.Gen.Kernel.Points
import proofs.«164824_j89300960019182_1_alg».proof.Proof.Gen.Kernel.Frame
import proofs.«164824_j89300960019182_1_alg».proof.Proof.Gen.KernelIdeal
import proofs.«164824_j89300960019182_1_alg».proof.Proof.Gen.KernelIdeal.Skeleton
import proofs.«164824_j89300960019182_1_alg».proof.Proof.Gen.KernelIdeal.Launch
import proofs.«164824_j89300960019182_1_alg».proof.Proof.Gen.KernelIdeal.Points
import proofs.«164824_j89300960019182_1_alg».proof.Proof.Gen.KernelIdeal.Frame
import proofs.«164824_j89300960019182_1_alg».proof.Proof.Gen.ReferenceIdeal
import proofs.«164824_j89300960019182_1_alg».proof.Proof.Gen.Pre_finite_inputs
import proofs.«164824_j89300960019182_1_alg».proof.Proof.KRun
import proofs.«164824_j89300960019182_1_alg».proof.Proof.Chain
import proofs.«164824_j89300960019182_1_alg».proof.Proof.RefRun
import proofs.«164824_j89300960019182_1_alg».proof.Proof.RefRead
import Idealize.ShloMosaic.Adequacy
import Idealize.ShloMosaic.Init

noncomputable section

namespace Cert.Proof

open Idealize.ShloMosaic Idealize.SL.Sem

/-- The kernel as printed runs and leaves its arguments: the chain of its segments. -/
theorem frame_kernel : Cert.frame_Kernel := fun m ρ _ => Cert.Kernel.Gen.frame m ρ

/-- The idealized kernel runs and leaves its arguments: the same chain read on the extended reals. -/
theorem frame_kernelIdeal : Cert.frame_KernelIdeal := fun m ρ _ => Cert.KernelIdeal.Gen.frame m ρ

/-- The reference runs and leaves its arguments: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the fourteen arguments both programs end with the same result array: the kernel's is
    the last boundary's contents of its result buffer, which the chain of stages identifies with the reference's
    result term of the arguments. -/
theorem algebraic : Cert.algebraic_KernelIdeal_ReferenceIdeal := by
  intro m ρ m' ρ' _ hagree
  refine ⟨fun c => Cert.KernelIdeal.Gen.W17 m ρ c (Proc.devRef .tc Cert.KernelIdeal.main_v143),
    Cert.KernelIdeal.Whole.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨g0, g1, g2, g3, g4, g5, g6, g7, g8, g9, g10, g11, g12, g13⟩ := hagree c
  rw [Cert.ReferenceIdeal.ReadP.val_main_v173_eq, g0, g1, g2, g3, g4, g5, g6, g7, g8, g9, g10, g11, g12, g13]
  exact (Cert.KernelIdeal.Chain.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
